-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S1600000x4 : Shape := ⟨2, ![1600000, 4]⟩
abbrev S2x1600000 : Shape := ⟨2, ![2, 1600000]⟩
abbrev S50000 : Shape := ⟨1, ![50000]⟩
abbrev S4x7 : Shape := ⟨2, ![4, 7]⟩
abbrev S7 : Shape := ⟨1, ![7]⟩
abbrev S7x64 : Shape := ⟨2, ![7, 64]⟩
abbrev S64 : Shape := ⟨1, ![64]⟩
abbrev S64x64 : Shape := ⟨2, ![64, 64]⟩
abbrev S4x64 : Shape := ⟨2, ![4, 64]⟩
abbrev S64x12 : Shape := ⟨2, ![64, 12]⟩
abbrev S12 : Shape := ⟨1, ![12]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S4x7 : S_.BroadcastsInDim S4x7 (![] : Fin 0 → Fin S4x7.rank)
  reducesTo_S4x7_S_d0_1 : S4x7.ReducesTo [0, 1] S_
  bcast_S_S7 : S_.BroadcastsInDim S7 (![] : Fin 0 → Fin S7.rank)
  reducesTo_S7_S_d0 : S7.ReducesTo [0] S_
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64 : S_.BroadcastsInDim S4x64 (![] : Fin 0 → Fin S4x64.rank)
  reducesTo_S4x64_S_d0_1 : S4x64.ReducesTo [0, 1] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_

variable [Facts]

def fn_part4 {F : FTy → Type} [FloatOps F] (main_arg16 : FVec F S64x12 .f32) (main_arg17 : FVec F S12 .f32) (main_v63 : IVec S_ 1) (main_v67 : IVec S_ 1) : IVec S_ 1 :=
  let main_v68 : IVec S_ 1 := andi main_v63 main_v67
  let main_v69 : FVec F S64x12 .f32 := Host.absf main_arg16
  let main_cst_26 : FVec F S_ .f32 := constant S_ .f32 0x7F800000#32
  let main_v70 : FVec F S64x12 .f32 := broadcastInDim S64x12 ![] bcast_S_S64x12 main_cst_26
  let main_v71 : IVec S64x12 1 := cmpf .olt main_v69 main_v70
  let main_c_27 : IVec S_ 1 := constantI S_ 1 1#1
  let main_v72 : IVec S_ 1 := (fun x v => Host.reduce IntOp.andi x v reducesTo_S64x12_S_d0_1 h_S_) main_v71 main_c_27
  let main_v73 : IVec S_ 1 := andi main_v68 main_v72
  let main_v74 : FVec F S12 .f32 := Host.absf main_arg17
  let main_cst_28 : FVec F S_ .f32 := constant S_ .f32 0x7F800000#32
  let main_v75 : FVec F S12 .f32 := broadcastInDim S12 ![] bcast_S_S12 main_cst_28
  let main_v76 : IVec S12 1 := cmpf .olt main_v74 main_v75
  let main_c_29 : IVec S_ 1 := constantI S_ 1 1#1
  let main_v77 : IVec S_ 1 := (fun x v => Host.reduce IntOp.andi x v reducesTo_S12_S_d0 h_S_) main_v76 main_c_29
  let main_v78 : IVec S_ 1 := andi main_v73 main_v77
  main_v78

def fn_part3 {F : FTy → Type} [FloatOps F] (main_arg13 : FVec F S64 .f32) (main_arg14 : FVec F S64x64 .f32) (main_arg15 : FVec F S64 .f32) (main_arg16 : FVec F S64x12 .f32) (main_arg17 : FVec F S12 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S4x64 .f32) (main_arg11 : FVec F S64 .f32) (main_arg12 : FVec F S64x64 .f32) (main_arg13 : FVec F S64 .f32) (main_arg14 : FVec F S64x64 .f32) (main_arg15 : FVec F S64 .f32) (main_arg16 : FVec F S64x12 .f32) (main_arg17 : FVec F S12 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S7x64 .f32) (main_arg7 : FVec F S64 .f32) (main_arg8 : FVec F S64x64 .f32) (main_arg9 : FVec F S64 .f32) (main_arg10 : FVec F S4x64 .f32) (main_arg11 : FVec F S64 .f32) (main_arg12 : FVec F S64x64 .f32) (main_arg13 : FVec F S64 .f32) (main_arg14 : FVec F S64x64 .f32) (main_arg15 : FVec F S64 .f32) (main_arg16 : FVec F S64x12 .f32) (main_arg17 : FVec F S12 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S7x64 .f32 := Host.absf main_arg6
  let main_cst_6 : FVec F S_ .f32 := constant S_ .f32 0x7F800000#32
  let main_v20 : FVec F S7x64 .f32 := broadcastInDim S7x64 ![] bcast_S_S7x64 main_cst_6
  let main_v21 : IVec S7x64 1 := cmpf .olt main_v19 main_v20
  let main_c_7 : IVec S_ 1 := constantI S_ 1 1#1
  let main_v22 : IVec S_ 1 := (fun x v => Host.reduce IntOp.andi x v reducesTo_S7x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x7 .f32) (main_arg1 : FVec F S1600000x4 .f32) (main_arg2 : IVec S2x1600000 32) (main_arg3 : IVec S50000 32) (main_arg4 : FVec F S4x7 .f32) (main_arg5 : FVec F S7 .f32) (main_arg6 : FVec F S7x64 .f32) (main_arg7 : FVec F S64 .f32) (main_arg8 : FVec F S64x64 .f32) (main_arg9 : FVec F S64 .f32) (main_arg10 : FVec F S4x64 .f32) (main_arg11 : FVec F S64 .f32) (main_arg12 : FVec F S64x64 .f32) (main_arg13 : FVec F S64 .f32) (main_arg14 : FVec F S64x64 .f32) (main_arg15 : FVec F S64 .f32) (main_arg16 : FVec F S64x12 .f32) (main_arg17 : FVec F S12 .f32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S1600000x4 .f32 := Host.absf main_arg1
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S4x7 .f32 := Host.absf main_arg4
  let main_cst_2 : FVec F S_ .f32 := constant S_ .f32 0x7F800000#32
  let main_v10 : FVec F S4x7 .f32 := broadcastInDim S4x7 ![] bcast_S_S4x7 main_cst_2
  let main_v11 : IVec S4x7 1 := cmpf .olt main_v9 main_v10
  let main_c_3 : IVec S_ 1 := constantI S_ 1 1#1
  let main_v12 : IVec S_ 1 := (fun x v => Host.reduce IntOp.andi x v reducesTo_S4x7_S_d0_1 h_S_) main_v11 main_c_3
  let main_v13 : IVec S_ 1 := andi main_v8 main_v12
  let main_v14 : FVec F S7 .f32 := Host.absf main_arg5
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x7 : Shape := ⟨2, ![50000, 7]⟩
abbrev S1600000x4 : Shape := ⟨2, ![1600000, 4]⟩
abbrev S2x1600000 : Shape := ⟨2, ![2, 1600000]⟩
abbrev S50000 : Shape := ⟨1, ![50000]⟩
abbrev S4x7 : Shape := ⟨2, ![4, 7]⟩
abbrev S7 : Shape := ⟨1, ![7]⟩
abbrev S7x64 : Shape := ⟨2, ![7, 64]⟩
abbrev S64 : Shape := ⟨1, ![64]⟩
abbrev S64x64 : Shape := ⟨2, ![64, 64]⟩
abbrev S4x64 : Shape := ⟨2, ![4, 64]⟩
abbrev S64x12 : Shape := ⟨2, ![64, 12]⟩
abbrev S12 : Shape := ⟨1, ![12]⟩
abbrev S1x1600000 : Shape := ⟨2, ![1, 1600000]⟩
abbrev S1600000 : Shape := ⟨1, ![1600000]⟩
abbrev S1x7 : Shape := ⟨2, ![1, 7]⟩
abbrev S1600000x7 : Shape := ⟨2, ![1600000, 7]⟩
abbrev S8000x4 : Shape := ⟨2, ![8000, 4]⟩
abbrev S8000x7 : Shape := ⟨2, ![8000, 7]⟩
abbrev S_ : Shape := ⟨0, ![]⟩
abbrev S1600000x1 : Shape := ⟨2, ![1600000, 1]⟩
abbrev S1x64 : Shape := ⟨2, ![1, 64]⟩
abbrev S50000x64 : Shape := ⟨2, ![50000, 64]⟩
abbrev S5000x7 : Shape := ⟨2, ![5000, 7]⟩
abbrev S5000x64 : Shape := ⟨2, ![5000, 64]⟩
abbrev S4x128 : Shape := ⟨2, ![4, 128]⟩
abbrev S8x128 : Shape := ⟨2, ![8, 128]⟩
abbrev S128 : Shape := ⟨1, ![128]⟩
abbrev S1x128 : Shape := ⟨2, ![1, 128]⟩
abbrev S800000x8 : Shape := ⟨2, ![800000, 8]⟩
abbrev S800000x128 : Shape := ⟨2, ![800000, 128]⟩
abbrev S8000x8 : Shape := ⟨2, ![8000, 8]⟩
abbrev S8000x128 : Shape := ⟨2, ![8000, 128]⟩
abbrev S1600000x64 : Shape := ⟨2, ![1600000, 64]⟩
abbrev S1000x64 : Shape := ⟨2, ![1000, 64]⟩
abbrev S50000x1 : Shape := ⟨2, ![50000, 1]⟩
abbrev S1000 : Shape := ⟨1, ![1000]⟩
abbrev S1000x1 : Shape := ⟨2, ![1000, 1]⟩
abbrev S1000x12 : Shape := ⟨2, ![1000, 12]⟩
abbrev S1x12 : Shape := ⟨2, ![1, 12]⟩

abbrev nBuf : Space → Nat
  | .hbm => 94
  | .vmem => 32
  | .smem => 0
  | _ => 0

abbrev bufTy : (tb : Table) → Fin (tcTables nBuf tb) → BufTy
  | .hbm, ⟨0, _⟩ => ⟨S50000x7, .f32⟩
  | .hbm, ⟨1, _⟩ => ⟨S1600000x4, .f32⟩
  | .hbm, ⟨2, _⟩ => ⟨S2x1600000, .i32⟩
  | .hbm, ⟨3, _⟩ => ⟨S50000, .i32⟩
  | .hbm, ⟨4, _⟩ => ⟨S4x7, .f32⟩
  | .hbm, ⟨5, _⟩ => ⟨S7, .f32⟩
  | .hbm, ⟨6, _⟩ => ⟨S7x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S4x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x12, .f32⟩
  | .hbm, ⟨17, _⟩ => ⟨S12, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1x7, .f32⟩
  | .hbm, ⟨23, _⟩ => ⟨S1600000x7, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x7, .f32⟩
  | .hbm, ⟨33, _⟩ => ⟨S1600000x7, .f32⟩
  | .hbm, ⟨34, _⟩ => ⟨S_, .f32⟩
  | .hbm, ⟨35, _⟩ => ⟨S1600000x7, .f32⟩
  | .hbm, ⟨36, _⟩ => ⟨S1600000x7, .f32⟩
  | .hbm, ⟨37, _⟩ => ⟨S_, .f32⟩
  | .hbm, ⟨38, _⟩ => ⟨S50000x7, .f32⟩
  | .hbm, ⟨39, _⟩ => ⟨S1600000x1, .i32⟩
  | .hbm, ⟨40, _⟩ => ⟨S50000x7, .f32⟩
  | .hbm, ⟨41, _⟩ => ⟨S1x64, .f32⟩
  | .hbm, ⟨42, _⟩ => ⟨S1x64, .f32⟩
  | .hbm, ⟨43, _⟩ => ⟨S50000x64, .f32⟩
  | .hbm, ⟨44, _⟩ => ⟨S_, .f32⟩
  | .hbm, ⟨45, _⟩ => ⟨S4x64, .f32⟩
  | .hbm, ⟨46, _⟩ => ⟨S4x128, .f32⟩
  | .hbm, ⟨47, _⟩ => ⟨S4x128, .f32⟩
  | .hbm, ⟨48, _⟩ => ⟨S8x128, .f32⟩
  | .hbm, ⟨49, _⟩ => ⟨S128, .f32⟩
  | .hbm, ⟨50, _⟩ => ⟨S1x128, .f32⟩
  | .hbm, ⟨51, _⟩ => ⟨S800000x8, .f32⟩
  | .hbm, ⟨52, _⟩ => ⟨S800000x128, .f32⟩
  | .hbm, ⟨53, _⟩ => ⟨S1600000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S50000x64, .f32⟩
  | .hbm, ⟨69, _⟩ => ⟨S1600000x1, .i32⟩
  | .hbm, ⟨70, _⟩ => ⟨S50000x64, .f32⟩
  | .hbm, ⟨71, _⟩ => ⟨S1x64, .f32⟩
  | .hbm, ⟨72, _⟩ => ⟨S1x64, .f32⟩
  | .hbm, ⟨73, _⟩ => ⟨S50000x64, .f32⟩
  | .hbm, ⟨74, _⟩ => ⟨S_, .f32⟩
  | .hbm, ⟨75, _⟩ => ⟨S1000x64, .f32⟩
  | .hbm, ⟨76, _⟩ => ⟨S50000x1, .i32⟩
  | .hbm, ⟨77, _⟩ => ⟨S1000x64, .f32⟩
  | .hbm, ⟨78, _⟩ => ⟨S_, .f32⟩
  | .hbm, ⟨79, _⟩ => ⟨S50000, .f32⟩
  | .hbm, ⟨80, _⟩ => ⟨S_, .f32⟩
  | .hbm, ⟨81, _⟩ => ⟨S1000, .f32⟩
  | .hbm, ⟨82, _⟩ => ⟨S50000x1, .i32⟩
  | .hbm, ⟨83, _⟩ => ⟨S1000, .f32⟩
  | .hbm, ⟨84, _⟩ => ⟨S_, .f32⟩
  | .hbm, ⟨85, _⟩ => ⟨S1000, .f32⟩
  | .hbm, ⟨86, _⟩ => ⟨S1000, .f32⟩
  | .hbm, ⟨87, _⟩ => ⟨S1000x1, .f32⟩
  | .hbm, ⟨88, _⟩ => ⟨S1000x64, .f32⟩
  | .hbm, ⟨89, _⟩ => ⟨S1000x64, .f32⟩
  | .hbm, ⟨90, _⟩ => ⟨S1000x12, .f32⟩
  | .hbm, ⟨91, _⟩ => ⟨S1x12, .f32⟩
  | .hbm, ⟨92, _⟩ => ⟨S1000x12, .f32⟩
  | .hbm, ⟨93, _⟩ => ⟨S1000x12, .f32⟩
  | .local _ .vmem, ⟨0, _⟩ => ⟨S8000x4, .f32⟩
  | .local _ .vmem, ⟨1, _⟩ => ⟨S8000x4, .f32⟩
  | .local _ .vmem, ⟨2, _⟩ => ⟨S4x7, .f32⟩
  | .local _ .vmem, ⟨3, _⟩ => ⟨S1x7, .f32⟩
  | .local _ .vmem, ⟨4, _⟩ => ⟨S8000x7, .f32⟩
  | .local _ .vmem, ⟨5, _⟩ => ⟨S8000x7, .f32⟩
  | .local _ .vmem, ⟨6, _⟩ => ⟨S5000x7, .f32⟩
  | .local _ .vmem, ⟨7, _⟩ => ⟨S5000x7, .f32⟩
  | .local _ .vmem, ⟨8, _⟩ => ⟨S5000x7, .f32⟩
  | .local _ .vmem, ⟨9, _⟩ => ⟨S5000x7, .f32⟩
  | .local _ .vmem, ⟨10, _⟩ => ⟨S7x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S8000x8, .f32⟩
  | .local _ .vmem, ⟨17, _⟩ => ⟨S8000x8, .f32⟩
  | .local _ .vmem, ⟨18, _⟩ => ⟨S8x128, .f32⟩
  | .local _ .vmem, ⟨19, _⟩ => ⟨S1x128, .f32⟩
  | .local _ .vmem, ⟨20, _⟩ => ⟨S8000x128, .f32⟩
  | .local _ .vmem, ⟨21, _⟩ => ⟨S8000x128, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call0_cst : Ref sig .tc := ⟨.hbm, 34, rfl⟩
abbrev main_call0_v0 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_2 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_cst : Ref sig .tc := ⟨.hbm, 64, rfl⟩
abbrev main_call1_v0 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S7_S1x7 : S7.ShapeCasts S1x7
  inb_S8000x4_S8000x4_0_0 : ∀ a, (![0, 0] : Fin 2 → Nat) a + S8000x4.size a ≤ S8000x4.size a
  h_S8000x4 : 0 < S8000x4.numel
  bitsLt_bf16_f32 : FTy.bits .bf16 < FTy.bits .f32
  inb_S4x7_S4x7_0_0 : ∀ a, (![0, 0] : Fin 2 → Nat) a + S4x7.size a ≤ S4x7.size a
  h_S4x7 : 0 < S4x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S8000x7 : S1x7.Broadcasts S8000x7
  inb_S8000x7_S8000x7_0_0 : ∀ a, (![0, 0] : Fin 2 → Nat) a + S8000x7.size a ≤ S8000x7.size a
  h_S8000x7 : 0 < S8000x7.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x7 : S_.BroadcastsInDim S1600000x7 (![] : Fin 0 → Fin S1600000x7.rank)
  bcast_S_S50000x7 : S_.BroadcastsInDim S50000x7 (![] : Fin 0 → Fin S50000x7.rank)
  shapeCasts_S64_S1x64 : S64.ShapeCasts S1x64
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  inb_S7x64_S7x64_0_0 : ∀ a, (![0, 0] : Fin 2 → Nat) a + S7x64.size a ≤ S7x64.size a
  h_S7x64 : 0 < S7x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S4x64 : S_.BroadcastsInDim S4x64 (![] : Fin 0 → Fin S4x64.rank)
  concatenates_S4x64_S4x64_S4x128_d1 : Shape.Concatenates [S4x64, S4x64] S4x128 1
  concatenates_S4x128_S4x128_S8x128_d0 : Shape.Concatenates [S4x128, S4x128] S8x128 0
  concatenates_S64_S64_S128_d0 : Shape.Concatenates [S64, S64] S128 0
  shapeCasts_S128_S1x128 : S128.ShapeCasts S1x128
  shapeCasts_S1600000x4_S800000x8 : S1600000x4.ShapeCasts S800000x8
  inb_S8000x8_S8000x8_0_0 : ∀ a, (![0, 0] : Fin 2 → Nat) a + S8000x8.size a ≤ S8000x8.size a
  h_S8000x8 : 0 < S8000x8.numel
  shapeCasts_S8000x8_S8000x8 : S8000x8.ShapeCasts S8000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S800000x128_S1600000x64 : S800000x128.ShapeCasts S1600000x64
  bcast_S_S1600000x64 : S_.BroadcastsInDim S1600000x64 (![] : Fin 0 → Fin S1600000x64.rank)
  bcast_S_S50000x64 : S_.BroadcastsInDim S50000x64 (![] : Fin 0 → Fin S50000x64.rank)
  shapeCasts_S5000x64_S5000x64 : S5000x64.ShapeCasts S5000x64
  bcast_S_S1000x64 : S_.BroadcastsInDim S1000x64 (![] : Fin 0 → Fin S1000x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S12_S1x12_1 : S12.BroadcastsInDim S1x12 (![1] : Fin 1 → Fin S1x12.rank)
  bcast_S1x12_S1000x12_0_1 : S1x12.BroadcastsInDim S1000x12 (![0, 1] : Fin 2 → Fin S1000x12.rank)
  dot_S8000x4_S4x7_S8000x7_1_0_0_1_n_n_wf : DotDims.WF S8000x4 S4x7 S8000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1
  dot_S5000x7_S7x64_S5000x64_1_0_0_1_n_n_wf : DotDims.WF S5000x7 S7x64 S5000x64 [1] [0] [0] [1] [] []
  dot_S5000x64_S64x64_S5000x64_1_0_0_1_n_n_wf : DotDims.WF S5000x64 S64x64 S5000x64 [1] [0] [0] [1] [] []
  dot_S8000x8_S8x128_S8000x128_1_0_0_1_n_n_wf : DotDims.WF S8000x8 S8x128 S8000x128 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S1000x64_S50000x1_S50000x64_1_0_0_1_wf : ScatterDims.WF S1000x64 S50000x1 S50000x64 [1] [0] [0] 1
  scatter_S1000_S50000x1_S50000_n_0_0_1_wf : ScatterDims.WF S1000 S50000x1 S50000 [] [0] [0] 1
  dot_S1000x64_S64x12_S1000x12_1_0_0_1_n_n_wf : DotDims.WF S1000x64 S64x12 S1000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S1600000x4.size a
  hwx0_0 : ∀ i : grid0.Coords, EltTy.bits .f32 = 32 ∨ (Rect.block (s := S1600000x4) S8000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x7.size a ≤ S4x7.size a
  hwx0_1 : ∀ i : grid0.Coords, EltTy.bits .f32 = 32 ∨ (Rect.block (s := S4x7) S4x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x7.size a ≤ S1600000x7.size a
  hwx0_3 : ∀ i : grid0.Coords, EltTy.bits .f32 = 32 ∨ (Rect.block (s := S1600000x7) S8000x7.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x7.size a ≤ S50000x7.size a
  hwx1_0 : ∀ i : grid1.Coords, EltTy.bits .f32 = 32 ∨ (Rect.block (s := S50000x7) S5000x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x7.size a ≤ S50000x7.size a
  hwx1_1 : ∀ i : grid1.Coords, EltTy.bits .f32 = 32 ∨ (Rect.block (s := S50000x7) S5000x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7x64.size a ≤ S7x64.size a
  hwx1_2 : ∀ i : grid1.Coords, EltTy.bits .f32 = 32 ∨ (Rect.block (s := S7x64) S7x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x8.size a ≤ S800000x8.size a
  hwx2_0 : ∀ i : grid2.Coords, EltTy.bits .f32 = 32 ∨ (Rect.block (s := S800000x8) S8000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S8x128.size a
  hwx2_1 : ∀ i : grid2.Coords, EltTy.bits .f32 = 32 ∨ (Rect.block (s := S8x128) S8x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S800000x128.size a
  hwx2_3 : ∀ i : grid2.Coords, EltTy.bits .f32 = 32 ∨ (Rect.block (s := S800000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def dot_S8000x4_S4x7_S8000x7_1_0_0_1_n_n : DotDims S8000x4 S4x7 S8000x7 where
  lhsContracting := [1]
  rhsContracting := [0]
  lhsNonContracting := [0]
  rhsNonContracting := [1]
  lhsBatch := []
  rhsBatch := []
  wf := dot_S8000x4_S4x7_S8000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf
def dot_S5000x7_S7x64_S5000x64_1_0_0_1_n_n : DotDims S5000x7 S7x64 S5000x64 where
  lhsContracting := [1]
  rhsContracting := [0]
  lhsNonContracting := [0]
  rhsNonContracting := [1]
  lhsBatch := []
  rhsBatch := []
  wf := dot_S5000x7_S7x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x64_S64x12_S1000x12_1_0_0_1_n_n : DotDims S1000x64 S64x12 S1000x12 where
  lhsContracting := [1]
  rhsContracting := [0]
  lhsNonContracting := [0]
  rhsNonContracting := [1]
  lhsBatch := []
  rhsBatch := []
  wf := dot_S1000x64_S64x12_S1000x12_1_0_0_1_n_n_wf

abbrev win0_0 : Pipeline.Window sig grid0 :=
  Pipeline.Window.ofSpec (Memref.whole main_arg1) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8000x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x7.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S7x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v27) S8000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S8x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x7 : Shape := ⟨2, ![50000, 7]⟩
abbrev S1600000x4 : Shape := ⟨2, ![1600000, 4]⟩
abbrev S2x1600000 : Shape := ⟨2, ![2, 1600000]⟩
abbrev S50000 : Shape := ⟨1, ![50000]⟩
abbrev S4x7 : Shape := ⟨2, ![4, 7]⟩
abbrev S7 : Shape := ⟨1, ![7]⟩
abbrev S7x64 : Shape := ⟨2, ![7, 64]⟩
abbrev S64 : Shape := ⟨1, ![64]⟩
abbrev S64x64 : Shape := ⟨2, ![64, 64]⟩
abbrev S4x64 : Shape := ⟨2, ![4, 64]⟩
abbrev S64x12 : Shape := ⟨2, ![64, 12]⟩
abbrev S12 : Shape := ⟨1, ![12]⟩
abbrev S1x1600000 : Shape := ⟨2, ![1, 1600000]⟩
abbrev S1600000 : Shape := ⟨1, ![1600000]⟩
abbrev S1600000x7 : Shape := ⟨2, ![1600000, 7]⟩
abbrev S1x7 : Shape := ⟨2, ![1, 7]⟩
abbrev S_ : Shape := ⟨0, ![]⟩
abbrev S1600000x1 : Shape := ⟨2, ![1600000, 1]⟩
abbrev S50000x64 : Shape := ⟨2, ![50000, 64]⟩
abbrev S1x64 : Shape := ⟨2, ![1, 64]⟩
abbrev S1600000x64 : Shape := ⟨2, ![1600000, 64]⟩
abbrev S1000x64 : Shape := ⟨2, ![1000, 64]⟩
abbrev S50000x1 : Shape := ⟨2, ![50000, 1]⟩
abbrev S1000 : Shape := ⟨1, ![1000]⟩
abbrev S1000x1 : Shape := ⟨2, ![1000, 1]⟩
abbrev S1000x12 : Shape := ⟨2, ![1000, 12]⟩
abbrev S1x12 : Shape := ⟨2, ![1, 12]⟩

abbrev nBuf : Space → Nat
  | .hbm => 114
  | .vmem => 0
  | .smem => 0
  | _ => 0

abbrev bufTy : (tb : Table) → Fin (tcTables nBuf tb) → BufTy
  | .hbm, ⟨0, _⟩ => ⟨S50000x7, .f32⟩
  | .hbm, ⟨1, _⟩ => ⟨S1600000x4, .f32⟩
  | .hbm, ⟨2, _⟩ => ⟨S2x1600000, .i32⟩
  | .hbm, ⟨3, _⟩ => ⟨S50000, .i32⟩
  | .hbm, ⟨4, _⟩ => ⟨S4x7, .f32⟩
  | .hbm, ⟨5, _⟩ => ⟨S7, .f32⟩
  | .hbm, ⟨6, _⟩ => ⟨S7x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S4x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x12, .f32⟩
  | .hbm, ⟨17, _⟩ => ⟨S12, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1600000x7, .f32⟩
  | .hbm, ⟨23, _⟩ => ⟨S1x7, .f32⟩
  | .hbm, ⟨24, _⟩ => ⟨S1600000x7, .f32⟩
  | .hbm, ⟨25, _⟩ => ⟨S1600000x7, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x7, .f32⟩
  | .hbm, ⟨35, _⟩ => ⟨S1600000x7, .f32⟩
  | .hbm, ⟨36, _⟩ => ⟨S_, .f32⟩
  | .hbm, ⟨37, _⟩ => ⟨S1600000x7, .f32⟩
  | .hbm, ⟨38, _⟩ => ⟨S1600000x7, .f32⟩
  | .hbm, ⟨39, _⟩ => ⟨S_, .f32⟩
  | .hbm, ⟨40, _⟩ => ⟨S50000x7, .f32⟩
  | .hbm, ⟨41, _⟩ => ⟨S1600000x1, .i32⟩
  | .hbm, ⟨42, _⟩ => ⟨S50000x7, .f32⟩
  | .hbm, ⟨43, _⟩ => ⟨S50000x7, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S1600000x64, .f32⟩
  | .hbm, ⟨59, _⟩ => ⟨S1x64, .f32⟩
  | .hbm, ⟨60, _⟩ => ⟨S1600000x64, .f32⟩
  | .hbm, ⟨61, _⟩ => ⟨S1600000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S50000x64, .f32⟩
  | .hbm, ⟨77, _⟩ => ⟨S1600000x1, .i32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S1000x64, .f32⟩
  | .hbm, ⟨96, _⟩ => ⟨S50000x1, .i32⟩
  | .hbm, ⟨97, _⟩ => ⟨S1000x64, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S1000, .f32⟩
  | .hbm, ⟨102, _⟩ => ⟨S50000x1, .i32⟩
  | .hbm, ⟨103, _⟩ => ⟨S1000, .f32⟩
  | .hbm, ⟨104, _⟩ => ⟨S_, .f32⟩
  | .hbm, ⟨105, _⟩ => ⟨S1000, .f32⟩
  | .hbm, ⟨106, _⟩ => ⟨S1000, .f32⟩
  | .hbm, ⟨107, _⟩ => ⟨S1000x1, .f32⟩
  | .hbm, ⟨108, _⟩ => ⟨S1000x64, .f32⟩
  | .hbm, ⟨109, _⟩ => ⟨S1000x64, .f32⟩
  | .hbm, ⟨110, _⟩ => ⟨S1000x12, .f32⟩
  | .hbm, ⟨111, _⟩ => ⟨S1x12, .f32⟩
  | .hbm, ⟨112, _⟩ => ⟨S1000x12, .f32⟩
  | .hbm, ⟨113, _⟩ => ⟨S1000x12, .f32⟩
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_cst : Ref sig .tc := ⟨.hbm, 48, rfl⟩
abbrev main_call1_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_1 : Ref sig .tc := ⟨.hbm, 62, rfl⟩
abbrev main_v35 : Ref sig .tc := ⟨.hbm, 63, rfl⟩
abbrev main_v36 : Ref sig .tc := ⟨.hbm, 64, rfl⟩
abbrev main_c_2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call3_cst : Ref sig .tc := ⟨.hbm, 72, rfl⟩
abbrev main_call3_v0 : Ref sig .tc := ⟨.hbm, 73, rfl⟩
abbrev main_v43 : Ref sig .tc := ⟨.hbm, 74, rfl⟩
abbrev main_cst_3 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call4_cst : Ref sig .tc := ⟨.hbm, 84, rfl⟩
abbrev main_call4_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_call5_cst : Ref sig .tc := ⟨.hbm, 91, rfl⟩
abbrev main_call5_v0 : Ref sig .tc := ⟨.hbm, 92, rfl⟩
abbrev main_v57 : Ref sig .tc := ⟨.hbm, 93, rfl⟩
abbrev main_cst_4 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_5 : Ref sig .tc := ⟨.hbm, 98, rfl⟩
abbrev main_v61 : Ref sig .tc := ⟨.hbm, 99, rfl⟩
abbrev main_cst_6 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_7 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S7_S1x7_1 : S7.BroadcastsInDim S1x7 (![1] : Fin 1 → Fin S1x7.rank)
  bcast_S1x7_S1600000x7_0_1 : S1x7.BroadcastsInDim S1600000x7 (![0, 1] : Fin 2 → Fin S1600000x7.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x7 : S_.BroadcastsInDim S1600000x7 (![] : Fin 0 → Fin S1600000x7.rank)
  bcast_S_S50000x7 : S_.BroadcastsInDim S50000x7 (![] : Fin 0 → Fin S50000x7.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1000x64 : S_.BroadcastsInDim S1000x64 (![] : Fin 0 → Fin S1000x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S12_S1x12_1 : S12.BroadcastsInDim S1x12 (![1] : Fin 1 → Fin S1x12.rank)
  bcast_S1x12_S1000x12_0_1 : S1x12.BroadcastsInDim S1000x12 (![0, 1] : Fin 2 → Fin S1000x12.rank)
  dot_S1600000x4_S4x7_S1600000x7_1_0_0_1_n_n_wf : DotDims.WF S1600000x4 S4x7 S1600000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1
  dot_S50000x7_S7x64_S50000x64_1_0_0_1_n_n_wf : DotDims.WF S50000x7 S7x64 S50000x64 [1] [0] [0] [1] [] []
  dot_S50000x64_S64x64_S50000x64_1_0_0_1_n_n_wf : DotDims.WF S50000x64 S64x64 S50000x64 [1] [0] [0] [1] [] []
  dot_S1600000x4_S4x64_S1600000x64_1_0_0_1_n_n_wf : DotDims.WF S1600000x4 S4x64 S1600000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S1000x64_S50000x1_S50000x64_1_0_0_1_wf : ScatterDims.WF S1000x64 S50000x1 S50000x64 [1] [0] [0] 1
  scatter_S1000_S50000x1_S50000_n_0_0_1_wf : ScatterDims.WF S1000 S50000x1 S50000 [] [0] [0] 1
  dot_S1000x64_S64x12_S1000x12_1_0_0_1_n_n_wf : DotDims.WF S1000x64 S64x12 S1000x12 [1] [0] [0] [1] [] []

variable [Facts₀]

def dot_S1600000x4_S4x7_S1600000x7_1_0_0_1_n_n : DotDims S1600000x4 S4x7 S1600000x7 where
  lhsContracting := [1]
  rhsContracting := [0]
  lhsNonContracting := [0]
  rhsNonContracting := [1]
  lhsBatch := []
  rhsBatch := []
  wf := dot_S1600000x4_S4x7_S1600000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf
def dot_S50000x7_S7x64_S50000x64_1_0_0_1_n_n : DotDims S50000x7 S7x64 S50000x64 where
  lhsContracting := [1]
  rhsContracting := [0]
  lhsNonContracting := [0]
  rhsNonContracting := [1]
  lhsBatch := []
  rhsBatch := []
  wf := dot_S50000x7_S7x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1600000x4_S4x64_S1600000x64_1_0_0_1_n_n : DotDims S1600000x4 S4x64 S1600000x64 where
  lhsContracting := [1]
  rhsContracting := [0]
  lhsNonContracting := [0]
  rhsNonContracting := [1]
  lhsBatch := []
  rhsBatch := []
  wf := dot_S1600000x4_S4x64_S1600000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x64_S64x12_S1000x12_1_0_0_1_n_n : DotDims S1000x64 S64x12 S1000x12 where
  lhsContracting := [1]
  rhsContracting := [0]
  lhsNonContracting := [0]
  rhsNonContracting := [1]
  lhsBatch := []
  rhsBatch := []
  wf := dot_S1000x64_S64x12_S1000x12_1_0_0_1_n_n_wf

class Facts : Prop extends Facts₀ where

variable [Facts]
-- ==== Proof.KRun.lean ====
/-
  The kernel program's run with its result named: every weakly fair execution terminates without a fault, the
  argument arrays end as launched, and the result buffer ends at what the last host stretch leaves in it — the fold of
  @main's host stretches and regions from the launch memory, read at the result's buffer.
  This is the launch of the program's thirteen segments that proves the frame, with the final state read at one
  more buffer.
-/
import proofs.«176886_j61761629716807_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents and every argument array as launched. -/
theorem run_named : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c)⟩)

end Cert.KernelIdeal.Named

end
-- ==== Proof.Spec.lean ====
/-
  The network both programs compute, as whole-array functions on the extended reals.

  A node array h : [50000, d] and an edge array e : [1600000, d] give the aggregate
      aggr h e (v, j) = Σ over the edges (u → v) of max (h (u, j) + e (edge, j)) 0,
  a gather of the source rows, a sum, a maximum with zero and a scatter-add into the target rows. One layer is
      h ↦ max (max ((h + aggr h (ea · We + be)) · Wa + ba) 0 · Wb + bb) 0,
  and the result is the per-graph mean of the rows of the second layer's output (a scatter-add by graph, divided by
  the larger of the graph's node count and 1) times Wfc plus bfc.
  Every function here is spelt with the host operations of the reference program, so that the reference's result is
  this composition by unfolding; the kernel program's regions are brought to the same functions layer by layer.
-/
import proofs.«176886_j61761629716807_2_alg».proof.Proof.Gen.ReferenceIdeal
import Idealize.ShloMosaic.PureOps.Ideal

noncomputable section

namespace Cert.Gnn

open Idealize.ShloMosaic Cert.ReferenceIdeal Cert.ReferenceIdeal.Facts₀ Cert.ReferenceIdeal.Facts

/-- The scalar zero broadcast to a shape: what the host's maximum-with-zero and scatter-add start from. -/
abbrev zeroOf (s : Shape) (p : (S_ : Shape).BroadcastsInDim s ![]) : FVec Ideal s .f32 :=
  broadcastInDim s ![] p (constant (F := Ideal) S_ .f32 0x00000000#32)

/-- Row 0 of the edge list: every edge's source node. -/
def srcOf (ei : IVec S2x1600000 32) : IVec S1600000 32 :=
  shapeCast _ (extractStridedSlice S1x1600000 ![0, 0] ei slices_S2x1600000_S1x1600000_0_0) shapeCasts_S1x1600000_S1600000

/-- Row 1 of the edge list: every edge's target node. -/
def dstOf (ei : IVec S2x1600000 32) : IVec S1600000 32 :=
  shapeCast _ (extractStridedSlice S1x1600000 ![1, 0] ei slices_S2x1600000_S1x1600000_1_0) shapeCasts_S1x1600000_S1600000

/-- A node index as the gather takes it: a negative index counts from the end (50000 is added), as a column. -/
def wrapIx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The edge features of layer 1: ea · We + be, [1600000, 7]. -/
def lin7 (ea : FVec Ideal S1600000x4 .f32) (we : FVec Ideal S4x7 .f32) (be : FVec Ideal S7 .f32) : FVec Ideal S1600000x7 .f32 :=
  addf (Host.dotGeneral dot_S1600000x4_S4x7_S1600000x7_1_0_0_1_n_n none ea we)
    (broadcastInDim S1600000x7 ![0, 1] bcast_S1x7_S1600000x7_0_1 (broadcastInDim S1x7 ![1] bcast_S7_S1x7_1 be))

/-- The edge features of layer 2: ea · We + be, [1600000, 64]. -/
def lin64 (ea : FVec Ideal S1600000x4 .f32) (we : FVec Ideal S4x64 .f32) (be : FVec Ideal S64 .f32) : FVec Ideal S1600000x64 .f32 :=
  addf (Host.dotGeneral dot_S1600000x4_S4x64_S1600000x64_1_0_0_1_n_n none ea we)
    (broadcastInDim S1600000x64 ![0, 1] bcast_S1x64_S1600000x64_0_1 (broadcastInDim S1x64 ![1] bcast_S64_S1x64_1 be))

/-- The aggregate of layer 1: for every node the sum over its incoming edges of max (h (source) + e (edge)) 0. -/
def aggr7 (h : FVec Ideal S50000x7 .f32) (ei : IVec S2x1600000 32) (e : FVec Ideal S1600000x7 .f32) : FVec Ideal S50000x7 .f32 :=
  Host.scatterAdd scatter_S50000x7_S1600000x1_S1600000x7_1_0_0_1 (zeroOf S50000x7 bcast_S_S50000x7)
    (broadcastInDim S1600000x1 ![0] bcast_S1600000_S1600000x1_0 (dstOf ei))
    (maximumf (addf (Host.gather gather_S50000x7_S1600000x1_S1600000x7_1_0_n_n_0_1_17 h (wrapIx (srcOf ei))) e)
      (zeroOf S1600000x7 bcast_S_S1600000x7))

/-- The aggregate of layer 2. -/
def aggr64 (h : FVec Ideal S50000x64 .f32) (ei : IVec S2x1600000 32) (e : FVec Ideal S1600000x64 .f32) : FVec Ideal S50000x64 .f32 :=
  Host.scatterAdd scatter_S50000x64_S1600000x1_S1600000x64_1_0_0_1 (zeroOf S50000x64 bcast_S_S50000x64)
    (broadcastInDim S1600000x1 ![0] bcast_S1600000_S1600000x1_0 (dstOf ei))
    (maximumf (addf (Host.gather gather_S50000x64_S1600000x1_S1600000x64_1_0_n_n_0_1_164 h (wrapIx (srcOf ei))) e)
      (zeroOf S1600000x64 bcast_S_S1600000x64))

/-- A bias [64] broadcast over the 50000 rows. -/
abbrev rows64 (b : FVec Ideal S64 .f32) : FVec Ideal S50000x64 .f32 :=
  broadcastInDim S50000x64 ![0, 1] bcast_S1x64_S50000x64_0_1 (broadcastInDim S1x64 ![1] bcast_S64_S1x64_1 b)

/-- The maximum with zero of a [50000, 64] array. -/
abbrev relu64 (v : FVec Ideal S50000x64 .f32) : FVec Ideal S50000x64 .f32 := maximumf v (zeroOf S50000x64 bcast_S_S50000x64)

/-- The node update of layer 1: max (max ((x + a) · Wa + ba) 0 · Wb + bb) 0, from width 7 to width 64. -/
def mlp7 (x a : FVec Ideal S50000x7 .f32) (wa : FVec Ideal S7x64 .f32) (ba : FVec Ideal S64 .f32)
    (wb : FVec Ideal S64x64 .f32) (bb : FVec Ideal S64 .f32) : FVec Ideal S50000x64 .f32 :=
  relu64 (addf (Host.dotGeneral dot_S50000x64_S64x64_S50000x64_1_0_0_1_n_n none
    (relu64 (addf (Host.dotGeneral dot_S50000x7_S7x64_S50000x64_1_0_0_1_n_n none (addf x a) wa) (rows64 ba))) wb) (rows64 bb))

/-- The node update of layer 2, width 64 throughout. -/
def mlp64 (x a : FVec Ideal S50000x64 .f32) (wa : FVec Ideal S64x64 .f32) (ba : FVec Ideal S64 .f32)
    (wb : FVec Ideal S64x64 .f32) (bb : FVec Ideal S64 .f32) : FVec Ideal S50000x64 .f32 :=
  relu64 (addf (Host.dotGeneral dot_S50000x64_S64x64_S50000x64_1_0_0_1_n_n none
    (relu64 (addf (Host.dotGeneral dot_S50000x64_S64x64_S50000x64_1_0_0_1_n_n none (addf x a) wa) (rows64 ba))) wb) (rows64 bb))

/-- The readout: the rows of h summed per graph, divided by the larger of the graph's node count and 1, times Wfc plus
    bfc. -/
def readout (h : FVec Ideal S50000x64 .f32) (batch : IVec S50000 32) (wfc : FVec Ideal S64x12 .f32) (bfc : FVec Ideal S12 .f32) :
    FVec Ideal S1000x12 .f32 :=
  addf (Host.dotGeneral dot_S1000x64_S64x12_S1000x12_1_0_0_1_n_n none
      (Host.divf
        (Host.scatterAdd scatter_S1000x64_S50000x1_S50000x64_1_0_0_1 (zeroOf S1000x64 bcast_S_S1000x64)
          (broadcastInDim S50000x1 ![0] bcast_S50000_S50000x1_0 batch) h)
        (broadcastInDim S1000x64 ![0, 1] bcast_S1000x1_S1000x64_0_1 (broadcastInDim S1000x1 ![0] bcast_S1000_S1000x1_0
          (maximumf
            (Host.scatterAdd scatter_S1000_S50000x1_S50000_n_0_0_1 (zeroOf S1000 bcast_S_S1000)
              (broadcastInDim S50000x1 ![0] bcast_S50000_S50000x1_0 batch)
              (broadcastInDim S50000 ![] bcast_S_S50000 (constant (F := Ideal) S_ .f32 0x3F800000#32)))
            (broadcastInDim S1000 ![] bcast_S_S1000 (constant (F := Ideal) S_ .f32 0x3F800000#32))))))
      wfc)
    (broadcastInDim S1000x12 ![0, 1] bcast_S1x12_S1000x12_0_1 (broadcastInDim S1x12 ![1] bcast_S12_S1x12_1 bfc))

/-- The first layer's output. -/
def layer1 (x : FVec Ideal S50000x7 .f32) (ea : FVec Ideal S1600000x4 .f32) (ei : IVec S2x1600000 32)
    (we1 : FVec Ideal S4x7 .f32) (be1 : FVec Ideal S7 .f32) (w1a : FVec Ideal S7x64 .f32) (b1a : FVec Ideal S64 .f32)
    (w1b : FVec Ideal S64x64 .f32) (b1b : FVec Ideal S64 .f32) : FVec Ideal S50000x64 .f32 :=
  mlp7 x (aggr7 x ei (lin7 ea we1 be1)) w1a b1a w1b b1b

/-- The second layer's output, from the first layer's. -/
def layer2 (h : FVec Ideal S50000x64 .f32) (ea : FVec Ideal S1600000x4 .f32) (ei : IVec S2x1600000 32)
    (we2 : FVec Ideal S4x64 .f32) (be2 : FVec Ideal S64 .f32) (w2a : FVec Ideal S64x64 .f32) (b2a : FVec Ideal S64 .f32)
    (w2b : FVec Ideal S64x64 .f32) (b2b : FVec Ideal S64 .f32) : FVec Ideal S50000x64 .f32 :=
  mlp64 h (aggr64 h ei (lin64 ea we2 be2)) w2a b2a w2b b2b

/-- The whole network: two layers and the readout. -/
def net (x : FVec Ideal S50000x7 .f32) (ea : FVec Ideal S1600000x4 .f32) (ei : IVec S2x1600000 32) (batch : IVec S50000 32)
    (we1 : FVec Ideal S4x7 .f32) (be1 : FVec Ideal S7 .f32) (w1a : FVec Ideal S7x64 .f32) (b1a : FVec Ideal S64 .f32)
    (w1b : FVec Ideal S64x64 .f32) (b1b : FVec Ideal S64 .f32)
    (we2 : FVec Ideal S4x64 .f32) (be2 : FVec Ideal S64 .f32) (w2a : FVec Ideal S64x64 .f32) (b2a : FVec Ideal S64 .f32)
    (w2b : FVec Ideal S64x64 .f32) (b2b : FVec Ideal S64 .f32)
    (wfc : FVec Ideal S64x12 .f32) (bfc : FVec Ideal S12 .f32) : FVec Ideal S1000x12 .f32 :=
  readout (layer2 (layer1 x ea ei we1 be1 w1a b1a w1b b1b) ea ei we2 be2 w2a b2a w2b b2b) batch wfc bfc

end Cert.Gnn

end
-- ==== Proof.LibButterfly.lean ====
/-
  One butterfly stage of Givens rotations on the rows of an array of width W = nb · 2 · st, read entry by entry.
  A row is cut into nb blocks of 2 · st entries; inside a block the first st entries (the half 0) are paired with the
  last st entries (the half 1), entry o of one half with entry o of the other, and the pair (a, b) at block b,
  offset o is rotated by the angle t(b, o):  a ↦ cos t · a − sin t · b,  b ↦ sin t · a + cos t · b.
  The position of (block b, half hf, offset o) in its row is (b · 2 + hf) · st + o.
  Both programs compute the stage through the same layout steps (view the array as [R, nb, 2, st], slice the two
  halves, multiply by the broadcast cosines and sines, join the halves again, view as [R, W]); this file reads
  each layout step at an index, for any extents.
-/
import Idealize.ShloMosaic.Lib.Pipeline.Value
import Idealize.ShloMosaic.Lib.ValueIdx
import Idealize.ShloMosaic.PureOps.Ideal

noncomputable section

namespace Cert.Bfly

open Idealize.ShloMosaic Idealize.ShloMosaic.ValueIdx

variable {α : Type} {R nb st W : ℕ}

/-- The position in its row of the entry at block b, half hf, offset o. -/
def pos (b : Fin nb) (hf : Fin 2) (o : Fin st) : ℕ := (b.val * 2 + hf.val) * st + o.val

theorem pos_lt (hW : nb * 2 * st = W) (b : Fin nb) (hf : Fin 2) (o : Fin st) : pos b hf o < W := by
  unfold pos
  have hb := b.isLt; have hh := hf.isLt; have ho := o.isLt
  calc (b.val * 2 + hf.val) * st + o.val < (b.val * 2 + hf.val) * st + st := by omega
    _ = (b.val * 2 + hf.val + 1) * st := by ring
    _ ≤ (nb * 2) * st := Nat.mul_le_mul_right _ (by omega)
    _ = W := hW

/-- The column of the entry at block b, half hf, offset o. -/
def col (hW : nb * 2 * st = W) (b : Fin nb) (hf : Fin 2) (o : Fin st) : Fin W := ⟨pos b hf o, pos_lt hW b hf o⟩

/-- Every column is the column of some (block, half, offset). -/
theorem col_surj (hW : nb * 2 * st = W) (k : Fin W) : ∃ (b : Fin nb) (hf : Fin 2) (o : Fin st), k = col hW b hf o := by
  have hk := k.isLt
  have hst : 0 < st := by
    rcases Nat.eq_zero_or_pos st with h | h
    · subst h; simp at hW; omega
    · exact h
  have hq : k.val / st < nb * 2 := by
    apply Nat.div_lt_of_lt_mul
    calc k.val < W := hk
      _ = nb * 2 * st := hW.symm
      _ = st * (nb * 2) := by ring
  refine ⟨⟨k.val / st / 2, by omega⟩, ⟨k.val / st % 2, Nat.mod_lt _ (by decide)⟩, ⟨k.val % st, Nat.mod_lt _ hst⟩, ?_⟩
  apply Fin.ext
  show k.val = (k.val / st / 2 * 2 + k.val / st % 2) * st + k.val % st
  rw [Nat.div_add_mod' (k.val / st) 2, Nat.div_add_mod' k.val st]

/-- The view of an [R, W] array as [R, nb, 2, st]: entry (r, b, hf, o) is entry (r, col b hf o). -/
theorem split_apply (hW : nb * 2 * st = W) (h : (⟨2, ![R, W]⟩ : Shape).Idx → α)
    (hc : (⟨2, ![R, W]⟩ : Shape).ShapeCasts ⟨4, ![R, nb, 2, st]⟩) (r : Fin R) (b : Fin nb) (hf : Fin 2) (o : Fin st) :
    shapeCast ⟨4, ![R, nb, 2, st]⟩ h hc (ix4 r b hf o) = h (ix2 r (col hW b hf o)) := by
  refine shapeCast_apply h hc _ _ ?_
  rw [Shape.rowMajor_val_two, Shape.rowMajor_val_four]
  show r.val * W + ((b.val * 2 + hf.val) * st + o.val) = ((r.val * nb + b.val) * 2 + hf.val) * st + o.val
  rw [← hW]; ring

/-- The view of an [R, nb, 2, st] array as [R, W]: entry (r, col b hf o) is entry (r, b, hf, o). -/
theorem join_apply (hW : nb * 2 * st = W) (X : (⟨4, ![R, nb, 2, st]⟩ : Shape).Idx → α)
    (hc : (⟨4, ![R, nb, 2, st]⟩ : Shape).ShapeCasts ⟨2, ![R, W]⟩) (r : Fin R) (b : Fin nb) (hf : Fin 2) (o : Fin st) :
    shapeCast ⟨2, ![R, W]⟩ X hc (ix2 r (col hW b hf o)) = X (ix4 r b hf o) := by
  refine shapeCast_apply X hc _ _ ?_
  rw [Shape.rowMajor_val_two, Shape.rowMajor_val_four]
  show ((r.val * nb + b.val) * 2 + hf.val) * st + o.val = r.val * W + ((b.val * 2 + hf.val) * st + o.val)
  rw [← hW]; ring

/-- Half e (0 or 1) of the [R, nb, 2, st] view, with its unit axis dropped: entry (r, b, o) is entry (r, b, e, o). -/
theorem half_apply (e : Fin 2) (X : (⟨4, ![R, nb, 2, st]⟩ : Shape).Idx → α)
    (hs : (⟨4, ![R, nb, 2, st]⟩ : Shape).Slices ![0, 0, e.val, 0] ⟨4, ![R, nb, 1, st]⟩)
    (hc : (⟨4, ![R, nb, 1, st]⟩ : Shape).ShapeCasts ⟨3, ![R, nb, st]⟩) (r : Fin R) (b : Fin nb) (o : Fin st) :
    shapeCast ⟨3, ![R, nb, st]⟩ (extractStridedSlice ⟨4, ![R, nb, 1, st]⟩ ![0, 0, e.val, 0] X hs) hc (ix3 r b o)
      = X (ix4 r b e o) := by
  refine (shapeCast_apply _ hc (ix3 r b o) (ix4 r b (0 : Fin 1) o) ?_).trans ?_
  · rw [Shape.rowMajor_val_four, Shape.rowMajor_val_three]
    show ((r.val * nb + b.val) * 1 + 0) * st + o.val = (r.val * nb + b.val) * st + o.val
    ring
  · refine extractStridedSlice_apply _ X hs _ _ fun a => ?_
    match a with
    | ⟨0, _⟩ => show r.val = 0 + r.val; omega
    | ⟨1, _⟩ => show b.val = 0 + b.val; omega
    | ⟨2, _⟩ => show e.val = e.val + 0; omega
    | ⟨3, _⟩ => show o.val = 0 + o.val; omega

/-- A unit axis put back by a shape cast: entry (r, b, 0, o) is entry (r, b, o). -/
theorem unitCast_apply (v : (⟨3, ![R, nb, st]⟩ : Shape).Idx → α)
    (hc : (⟨3, ![R, nb, st]⟩ : Shape).ShapeCasts ⟨4, ![R, nb, 1, st]⟩) (r : Fin R) (b : Fin nb) (o : Fin st) :
    shapeCast ⟨4, ![R, nb, 1, st]⟩ v hc (ix4 r b (0 : Fin 1) o) = v (ix3 r b o) := by
  refine shapeCast_apply v hc _ _ ?_
  rw [Shape.rowMajor_val_four, Shape.rowMajor_val_three]
  show (r.val * nb + b.val) * st + o.val = ((r.val * nb + b.val) * 1 + 0) * st + o.val
  ring

/-- A unit axis put back by a broadcast along the axes 0, 1, 3: entry (r, b, 0, o) is entry (r, b, o). -/
theorem unitBcast_apply (v : (⟨3, ![R, nb, st]⟩ : Shape).Idx → α)
    (hb : (⟨3, ![R, nb, st]⟩ : Shape).BroadcastsInDim ⟨4, ![R, nb, 1, st]⟩ ![0, 1, 3]) (r : Fin R) (b : Fin nb) (o : Fin st) :
    broadcastInDim ⟨4, ![R, nb, 1, st]⟩ ![0, 1, 3] hb v (ix4 r b (0 : Fin 1) o) = v (ix3 r b o) := by
  refine broadcastInDim_apply _ hb v _ _ fun a => ?_
  match a with
  | ⟨0, _⟩ =>
    show r.val = if R = 1 then 0 else r.val
    split
    · have := r.isLt; omega
    · rfl
  | ⟨1, _⟩ =>
    show b.val = if nb = 1 then 0 else b.val
    split
    · have := b.isLt; omega
    · rfl
  | ⟨2, _⟩ =>
    show o.val = if st = 1 then 0 else o.val
    split
    · have := o.isLt; omega
    · rfl

/-- The two halves joined along the axis 2: half 0 comes from the first piece, half 1 from the second. -/
theorem cat_apply (A B : (⟨4, ![R, nb, 1, st]⟩ : Shape).Idx → α)
    (hcat : Shape.Concatenates [(⟨4, ![R, nb, 1, st]⟩ : Shape), ⟨4, ![R, nb, 1, st]⟩] ⟨4, ![R, nb, 2, st]⟩ 2)
    (r : Fin R) (b : Fin nb) (hf : Fin 2) (o : Fin st) :
    concatenate ⟨4, ![R, nb, 2, st]⟩ 2 [⟨⟨4, ![R, nb, 1, st]⟩, A⟩, ⟨⟨4, ![R, nb, 1, st]⟩, B⟩] hcat (ix4 r b hf o)
      = if hf = 0 then A (ix4 r b (0 : Fin 1) o) else B (ix4 r b (0 : Fin 1) o) := by
  by_cases h0 : hf = 0
  · subst h0
    rw [if_pos rfl]
    refine concatenate_pair_apply_left (t := ⟨4, ![R, nb, 2, st]⟩) 2 A B hcat _ rfl _ fun a => ?_
    match a with
    | ⟨0, _⟩ => rfl
    | ⟨1, _⟩ => rfl
    | ⟨2, _⟩ => rfl
    | ⟨3, _⟩ => rfl
  · rw [if_neg h0]
    have h1 : hf.val = 1 := by
      have := hf.isLt
      have : hf.val ≠ 0 := fun h => h0 (Fin.ext h)
      omega
    refine concatenate_pair_apply_right (t := ⟨4, ![R, nb, 2, st]⟩) 2 A B hcat _ rfl rfl _ (fun a ha => ?_) ?_
    · match a with
      | ⟨0, _⟩ => rfl
      | ⟨1, _⟩ => rfl
      | ⟨2, _⟩ => exact absurd rfl ha
      | ⟨3, _⟩ => rfl
    · show 0 + 1 = hf.val
      omega

variable {T N : ℕ}

/-- The position of the angle of block b, offset o among the nb · st angles of a stage. -/
theorem tpos_lt (hT : nb * st = T) (b : Fin nb) (o : Fin st) : b.val * st + o.val < T := by
  have hb := b.isLt; have ho := o.isLt
  calc b.val * st + o.val < b.val * st + st := by omega
    _ = (b.val + 1) * st := by ring
    _ ≤ nb * st := Nat.mul_le_mul_right _ (by omega)
    _ = T := hT

/-- A table [nb, st] given a leading unit axis and broadcast over the rows: entry (r, b, o) is entry (b, o). -/
theorem rowsCast_apply (c2 : (⟨2, ![nb, st]⟩ : Shape).Idx → α)
    (hc : (⟨2, ![nb, st]⟩ : Shape).ShapeCasts ⟨3, ![1, nb, st]⟩)
    (hb : (⟨3, ![1, nb, st]⟩ : Shape).Broadcasts ⟨3, ![R, nb, st]⟩) (r : Fin R) (b : Fin nb) (o : Fin st) :
    broadcastTo ⟨3, ![R, nb, st]⟩ (shapeCast ⟨3, ![1, nb, st]⟩ c2 hc) hb (ix3 r b o) = c2 (ix2 b o) := by
  refine (broadcastTo_apply _ hb (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine shapeCast_apply c2 hc _ _ ?_
    rw [Shape.rowMajor_val_two, Shape.rowMajor_val_three]
    show b.val * st + o.val = (0 * nb + b.val) * st + o.val
    ring

/-- The same through two broadcasts that name their axes: entry (r, b, o) is entry (b, o). -/
theorem rowsBcast_apply (c2 : (⟨2, ![nb, st]⟩ : Shape).Idx → α)
    (hb1 : (⟨2, ![nb, st]⟩ : Shape).BroadcastsInDim ⟨3, ![1, nb, st]⟩ ![1, 2])
    (hb2 : (⟨3, ![1, nb, st]⟩ : Shape).BroadcastsInDim ⟨3, ![R, nb, st]⟩ ![0, 1, 2]) (r : Fin R) (b : Fin nb) (o : Fin st) :
    broadcastInDim ⟨3, ![R, nb, st]⟩ ![0, 1, 2] hb2 (broadcastInDim ⟨3, ![1, nb, st]⟩ ![1, 2] hb1 c2) (ix3 r b o) = c2 (ix2 b o) := by
  refine (broadcastInDim_apply _ hb2 _ (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine broadcastInDim_apply _ hb1 c2 _ _ fun a => ?_
    match a with
    | ⟨0, _⟩ =>
      show b.val = if nb = 1 then 0 else b.val
      split
      · have := b.isLt; omega
      · rfl
    | ⟨1, _⟩ =>
      show o.val = if st = 1 then 0 else o.val
      split
      · have := o.isLt; omega
      · rfl

/-- A row [1, T] of angles viewed as a vector and then as [nb, st]: entry (b, o) is entry (0, b · st + o). -/
theorem tableK_apply (hT : nb * st = T) (v : (⟨2, ![1, T]⟩ : Shape).Idx → α)
    (h1 : (⟨2, ![1, T]⟩ : Shape).ShapeCasts ⟨1, ![T]⟩) (h2 : (⟨1, ![T]⟩ : Shape).ShapeCasts ⟨2, ![nb, st]⟩)
    (b : Fin nb) (o : Fin st) :
    shapeCast ⟨2, ![nb, st]⟩ (shapeCast ⟨1, ![T]⟩ v h1) h2 (ix2 b o) = v (ix2 (0 : Fin 1) ⟨b.val * st + o.val, tpos_lt hT b o⟩) := by
  refine (shapeCast_apply _ h2 (ix2 b o) (ix1 ⟨b.val * st + o.val, tpos_lt hT b o⟩) ?_).trans ?_
  · rw [Shape.rowMajor_val_one, Shape.rowMajor_val_two]; rfl
  · refine shapeCast_apply v h1 _ _ ?_
    rw [Shape.rowMajor_val_one, Shape.rowMajor_val_two]
    show 0 * T + (b.val * st + o.val) = b.val * st + o.val
    ring

/-- The T angles from offset off of a vector of N angles, viewed as [nb, st]: entry (b, o) is entry off + b · st + o. -/
theorem tableR_apply (off : ℕ) (θ : (⟨1, ![N]⟩ : Shape).Idx → α)
    (hs : (⟨1, ![N]⟩ : Shape).Slices ![off] ⟨1, ![T]⟩) (hc : (⟨1, ![T]⟩ : Shape).ShapeCasts ⟨2, ![nb, st]⟩)
    (hT : nb * st = T) (b : Fin nb) (o : Fin st) (hlt : off + (b.val * st + o.val) < N) :
    shapeCast ⟨2, ![nb, st]⟩ (extractStridedSlice ⟨1, ![T]⟩ ![off] θ hs) hc (ix2 b o) = θ (ix1 ⟨off + (b.val * st + o.val), hlt⟩) := by
  refine (shapeCast_apply _ hc (ix2 b o) (ix1 ⟨b.val * st + o.val, tpos_lt hT b o⟩) ?_).trans ?_
  · rw [Shape.rowMajor_val_one, Shape.rowMajor_val_two]; rfl
  · refine extractStridedSlice_apply _ θ hs _ _ fun a => ?_
    match a with
    | ⟨0, _⟩ => rfl

/-! ## The stage -/

section Stage

variable (hW : nb * 2 * st = W)

/-- One stage over the [R, nb, 2, st] view, given the cosines C and sines S already laid out as [R, nb, st] and the way a
    rotated half gets its unit axis back (unit): the halves a, b become C·a − S·b and S·a + C·b. -/
def core
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (unit : FVec Ideal ⟨3, ![R, nb, st]⟩ .f32 → FVec Ideal ⟨4, ![R, nb, 1, st]⟩ .f32)
    (C S : FVec Ideal ⟨3, ![R, nb, st]⟩ .f32) (h : FVec Ideal ⟨2, ![R, W]⟩ .f32) : FVec Ideal ⟨2, ![R, W]⟩ .f32 :=
  shapeCast ⟨2, ![R, W]⟩
    (concatenate ⟨4, ![R, nb, 2, st]⟩ 2
      [⟨⟨4, ![R, nb, 1, st]⟩, unit (subf
          (mulf C (shapeCast ⟨3, ![R, nb, st]⟩ (extractStridedSlice ⟨4, ![R, nb, 1, st]⟩ ![0, 0, 0, 0] (shapeCast ⟨4, ![R, nb, 2, st]⟩ h hsplit) hs0) hdrop))
          (mulf S (shapeCast ⟨3, ![R, nb, st]⟩ (extractStridedSlice ⟨4, ![R, nb, 1, st]⟩ ![0, 0, 1, 0] (shapeCast ⟨4, ![R, nb, 2, st]⟩ h hsplit) hs1) hdrop)))⟩,
       ⟨⟨4, ![R, nb, 1, st]⟩, unit (addf
          (mulf S (shapeCast ⟨3, ![R, nb, st]⟩ (extractStridedSlice ⟨4, ![R, nb, 1, st]⟩ ![0, 0, 0, 0] (shapeCast ⟨4, ![R, nb, 2, st]⟩ h hsplit) hs0) hdrop))
          (mulf C (shapeCast ⟨3, ![R, nb, st]⟩ (extractStridedSlice ⟨4, ![R, nb, 1, st]⟩ ![0, 0, 1, 0] (shapeCast ⟨4, ![R, nb, 2, st]⟩ h hsplit) hs1) hdrop)))⟩]
      hcat)
    hjoin

/-- The stage entry by entry: at block b, offset o the half 0 becomes C·a − S·b and the half 1 becomes S·a + C·b,
    a and b the entries of the two halves at (b, o) in the same row. -/
theorem core_apply hsplit hs0 hs1 hdrop hcat hjoin
    (unit : FVec Ideal ⟨3, ![R, nb, st]⟩ .f32 → FVec Ideal ⟨4, ![R, nb, 1, st]⟩ .f32)
    (hunit : ∀ v r b o, unit v (ix4 r b (0 : Fin 1) o) = v (ix3 r b o))
    (C S : FVec Ideal ⟨3, ![R, nb, st]⟩ .f32) (h : FVec Ideal ⟨2, ![R, W]⟩ .f32)
    (r : Fin R) (b : Fin nb) (hf : Fin 2) (o : Fin st) :
    core hsplit hs0 hs1 hdrop hcat hjoin unit C S h (ix2 r (col hW b hf o))
      = if hf = 0 then C (ix3 r b o) * h (ix2 r (col hW b 0 o)) - S (ix3 r b o) * h (ix2 r (col hW b 1 o))
        else S (ix3 r b o) * h (ix2 r (col hW b 0 o)) + C (ix3 r b o) * h (ix2 r (col hW b 1 o)) := by
  unfold core
  rw [join_apply hW, cat_apply, hunit, hunit]
  have ha : shapeCast ⟨3, ![R, nb, st]⟩ (extractStridedSlice ⟨4, ![R, nb, 1, st]⟩ ![0, 0, 0, 0] (shapeCast ⟨4, ![R, nb, 2, st]⟩ h hsplit) hs0) hdrop (ix3 r b o)
      = h (ix2 r (col hW b 0 o)) :=
    (half_apply (0 : Fin 2) _ hs0 hdrop r b o).trans (split_apply hW h hsplit r b 0 o)
  have hb : shapeCast ⟨3, ![R, nb, st]⟩ (extractStridedSlice ⟨4, ![R, nb, 1, st]⟩ ![0, 0, 1, 0] (shapeCast ⟨4, ![R, nb, 2, st]⟩ h hsplit) hs1) hdrop (ix3 r b o)
      = h (ix2 r (col hW b 1 o)) :=
    (half_apply (1 : Fin 2) _ hs1 hdrop r b o).trans (split_apply hW h hsplit r b 1 o)
  rw [subf_apply, addf_apply, mulf_apply, mulf_apply, mulf_apply, mulf_apply, ha, hb]

end Stage

/-! ## Rows -/

/-- Y holds, row for row, the rows e of X. -/
def RowsOf {R' n : ℕ} (e : Fin R' → Fin R) (Y : (⟨2, ![R', n]⟩ : Shape).Idx → EReal) (X : (⟨2, ![R, n]⟩ : Shape).Idx → EReal) : Prop :=
  ∀ (r : Fin R') (k : Fin n), Y (ix2 r k) = X (ix2 (e r) k)

/-! ## The stage as each program spells it -/

section Spellings

variable {R' off : ℕ}

theorem hostCos_apply {s : Shape} (x : FVec Ideal s .f32) (i : s.Idx) : Host.cos x i = FloatOps.hostUnary (F := Ideal) .cos (x i) := rfl
theorem hostSin_apply {s : Shape} (x : FVec Ideal s .f32) (i : s.Idx) : Host.sin x i = FloatOps.hostUnary (F := Ideal) .sin (x i) := rfl

/-- The stage with the cosines and sines given as rows [1, T] of ready-made tables: each row is viewed as [nb, st], given a
    leading unit axis and broadcast over the R rows; a rotated half gets its unit axis back by a shape cast. -/
def stageK
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).ShapeCasts ⟨4, ![R, nb, 1, st]⟩)
    (q1 : (⟨2, ![1, T]⟩ : Shape).ShapeCasts ⟨1, ![T]⟩) (q2 : (⟨1, ![T]⟩ : Shape).ShapeCasts ⟨2, ![nb, st]⟩)
    (q3 : (⟨2, ![nb, st]⟩ : Shape).ShapeCasts ⟨3, ![1, nb, st]⟩) (qb : (⟨3, ![1, nb, st]⟩ : Shape).Broadcasts ⟨3, ![R, nb, st]⟩)
    (vc vs : FVec Ideal ⟨2, ![1, T]⟩ .f32) (h : FVec Ideal ⟨2, ![R, W]⟩ .f32) : FVec Ideal ⟨2, ![R, W]⟩ .f32 :=
  core hsplit hs0 hs1 hdrop hcat hjoin (fun v => shapeCast ⟨4, ![R, nb, 1, st]⟩ v hins)
    (broadcastTo ⟨3, ![R, nb, st]⟩ (shapeCast ⟨3, ![1, nb, st]⟩ (shapeCast ⟨2, ![nb, st]⟩ (shapeCast ⟨1, ![T]⟩ vc q1) q2) q3) qb)
    (broadcastTo ⟨3, ![R, nb, st]⟩ (shapeCast ⟨3, ![1, nb, st]⟩ (shapeCast ⟨2, ![nb, st]⟩ (shapeCast ⟨1, ![T]⟩ vs q1) q2) q3) qb)
    h

/-- The stage with the angles taken from a vector of N angles at offset off: the T angles are viewed as [nb, st], their
    cosines and sines broadcast over the R rows through two broadcasts that name their axes; a rotated half gets its unit
    axis back by a broadcast along the axes 0, 1, 3. -/
def stageR (off : ℕ)
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).BroadcastsInDim ⟨4, ![R, nb, 1, st]⟩ ![0, 1, 3])
    (ps : (⟨1, ![N]⟩ : Shape).Slices ![off] ⟨1, ![T]⟩) (pc : (⟨1, ![T]⟩ : Shape).ShapeCasts ⟨2, ![nb, st]⟩)
    (p1 : (⟨2, ![nb, st]⟩ : Shape).BroadcastsInDim ⟨3, ![1, nb, st]⟩ ![1, 2])
    (p2 : (⟨3, ![1, nb, st]⟩ : Shape).BroadcastsInDim ⟨3, ![R, nb, st]⟩ ![0, 1, 2])
    (θ : FVec Ideal ⟨1, ![N]⟩ .f32) (h : FVec Ideal ⟨2, ![R, W]⟩ .f32) : FVec Ideal ⟨2, ![R, W]⟩ .f32 :=
  core hsplit hs0 hs1 hdrop hcat hjoin (fun v => broadcastInDim ⟨4, ![R, nb, 1, st]⟩ ![0, 1, 3] hins v)
    (broadcastInDim ⟨3, ![R, nb, st]⟩ ![0, 1, 2] p2 (broadcastInDim ⟨3, ![1, nb, st]⟩ ![1, 2] p1
      (Host.cos (shapeCast ⟨2, ![nb, st]⟩ (extractStridedSlice ⟨1, ![T]⟩ ![off] θ ps) pc))))
    (broadcastInDim ⟨3, ![R, nb, st]⟩ ![0, 1, 2] p2 (broadcastInDim ⟨3, ![1, nb, st]⟩ ![1, 2] p1
      (Host.sin (shapeCast ⟨2, ![nb, st]⟩ (extractStridedSlice ⟨1, ![T]⟩ ![off] θ ps) pc))))
    h

/-- Row for row the two spellings agree: if Y holds the rows e of X and the ready-made tables hold the cosines and sines
    of the angles at off …, then the stage of Y holds the rows e of the stage of X. -/
theorem stage_rows (hW : nb * 2 * st = W) (hT : nb * st = T) (hoff : off + T ≤ N) (e : Fin R' → Fin R)
    hsplit hs0 hs1 hdrop hcat hjoin hins q1 q2 q3 qb
    hsplit' hs0' hs1' hdrop' hcat' hjoin' hins' ps pc p1 p2
    (vc vs : FVec Ideal ⟨2, ![1, T]⟩ .f32) (θ : FVec Ideal ⟨1, ![N]⟩ .f32)
    (hvc : ∀ (j : Fin T) (hlt : off + j.val < N), vc (ix2 (0 : Fin 1) j) = FloatOps.hostUnary (F := Ideal) .cos (θ (ix1 ⟨off + j.val, hlt⟩)))
    (hvs : ∀ (j : Fin T) (hlt : off + j.val < N), vs (ix2 (0 : Fin 1) j) = FloatOps.hostUnary (F := Ideal) .sin (θ (ix1 ⟨off + j.val, hlt⟩)))
    (Y : FVec Ideal ⟨2, ![R', W]⟩ .f32) (X : FVec Ideal ⟨2, ![R, W]⟩ .f32) (hY : RowsOf e Y X) :
    RowsOf e (stageK (R := R') (nb := nb) (st := st) (T := T) hsplit hs0 hs1 hdrop hcat hjoin hins q1 q2 q3 qb vc vs Y)
      (stageR (R := R) (nb := nb) (st := st) (T := T) (N := N) off hsplit' hs0' hs1' hdrop' hcat' hjoin' hins' ps pc p1 p2 θ X) := by
  intro r k
  obtain ⟨b, hf, o, rfl⟩ := col_surj hW k
  have hlt : off + (b.val * st + o.val) < N := by have := tpos_lt hT b o; omega
  unfold stageK stageR
  rw [core_apply hW _ _ _ _ _ _ _ (fun v r b o => unitCast_apply v hins r b o),
    core_apply hW _ _ _ _ _ _ _ (fun v r b o => unitBcast_apply v hins' r b o),
    rowsCast_apply, rowsCast_apply, tableK_apply hT, tableK_apply hT,
    rowsBcast_apply, rowsBcast_apply, hostCos_apply, hostSin_apply, tableR_apply off θ ps pc hT b o hlt,
    hvc _ hlt, hvs _ hlt, hY, hY]

end Spellings

end Cert.Bfly

end
-- ==== Proof.LibDenseRows.lean ====
/-
  A row-tiled affine layer x · w + b and the maximum with zero, read entry by entry for any extents, in the two
  spellings the programs use (a matrix unit's product into a zero accumulator with a [1, N] bias broadcast over the
  rows; a host product with an [N] bias broadcast through [1, N]). Every product is the plain finite sum over the
  contracted coordinate, so a layer applied to some rows of an array gives the same rows of the layer applied to the
  whole array.
-/
import Idealize.ShloMosaic.Lib.Pipeline.Value
import Idealize.ShloMosaic.Lib.ValueIdx
import Idealize.ShloMosaic.Lib.StackMember
import Idealize.ShloMosaic.PureOps.Ideal.Laws
import proofs.«176886_j61761629716807_2_alg».proof.Proof.LibButterfly

noncomputable section

namespace Cert.Dense

open Idealize.ShloMosaic Idealize.ShloMosaic.ValueIdx Cert.Bfly

variable {R R' K N : ℕ} {φ₁ φ₂ : FTy}

/-- The plain product of an R×K by a K×N matrix into a zero accumulator, read at an index, is the sum over the
    contracted coordinate of the products of the entries. -/
theorem matmul_plain_apply (prec : Option ContractPrecision)
    (A : FVec Ideal ⟨2, ![R, K]⟩ φ₁) (B : FVec Ideal ⟨2, ![K, N]⟩ φ₂) (a : Fin R) (b : Fin N) :
    matmul (DotDims.plain R K N) prec A B (constant ⟨2, ![R, N]⟩ .f32 0x00000000#32) (ix2 a b) = ∑ c : Fin K, A (ix2 a c) * B (ix2 c b) := by
  show FloatOps.matmul _ prec A B _ (ix2 a b) = _
  rw [Ideal.matmul_constant_zero_apply, ← Equiv.sum_comp (contrEquiv1 (DotDims.plain R K N) K rfl rfl).symm]
  refine Finset.sum_congr rfl fun c _ => ?_
  have c2 := contrEquiv1_symm_val (DotDims.plain R K N) K rfl rfl c
  have l2 : (DotDims.plain R K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain R K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The affine layer as a matrix unit computes it: the product into a zero accumulator plus the [1, N] bias broadcast over
    the rows. -/
def affK (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) : FVec Ideal ⟨2, ![R, N]⟩ .f32 :=
  addf (matmul (DotDims.plain R K N) none x w (constant ⟨2, ![R, N]⟩ .f32 0x00000000#32)) (broadcastTo ⟨2, ![R, N]⟩ bias pb)

/-- The affine layer as the host computes it: the product plus the [N] bias broadcast through [1, N]. -/
def affR (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) : FVec Ideal ⟨2, ![R, N]⟩ .f32 :=
  addf (Host.dotGeneral (DotDims.plain R K N) none x w) (broadcastInDim ⟨2, ![R, N]⟩ ![0, 1] p2 (broadcastInDim ⟨2, ![1, N]⟩ ![1] p1 b1))

theorem affK_apply (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) (r : Fin R) (n : Fin N) :
    affK pb x w bias (ix2 r n) = (∑ c : Fin K, x (ix2 r c) * w (ix2 c n)) + bias (ix2 (0 : Fin 1) n) := by
  unfold affK
  rw [addf_apply, matmul_plain_apply]
  refine congrArg _ (broadcastTo_apply bias pb _ _ fun a => ?_)
  match a with
  | ⟨0, _⟩ => show 0 = if (1 : ℕ) = 1 then 0 else _; rw [if_pos rfl]
  | ⟨1, _⟩ =>
    show n.val = if N = 1 then 0 else n.val
    split
    · have := n.isLt; omega
    · rfl

theorem affR_apply (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) (r : Fin R) (n : Fin N) :
    affR p1 p2 x w b1 (ix2 r n) = (∑ c : Fin K, x (ix2 r c) * w (ix2 c n)) + b1 (ix1 n) := by
  unfold affR
  rw [addf_apply, StackMember.dotGeneral_plain_apply]
  refine congrArg _ ((broadcastInDim_apply _ p2 _ (ix2 r n) (ix2 (0 : Fin 1) n) fun a => ?_).trans
    (broadcastInDim_apply _ p1 b1 _ _ fun a => ?_))
  · match a with
    | ⟨0, _⟩ => show 0 = if (1 : ℕ) = 1 then 0 else _; rw [if_pos rfl]
    | ⟨1, _⟩ =>
      show n.val = if N = 1 then 0 else n.val
      split
      · have := n.isLt; omega
      · rfl
  · match a with
    | ⟨0, _⟩ =>
      show n.val = if N = 1 then 0 else n.val
      split
      · have := n.isLt; omega
      · rfl

/-- The affine layer of some rows is the same rows of the affine layer. -/
theorem aff_rows (e : Fin R' → Fin R) (pb : (⟨2, ![1, N]⟩ : Shape).Broadcasts ⟨2, ![R', N]⟩) p1 p2
    (x' : FVec Ideal ⟨2, ![R', K]⟩ φ₁) (w' : FVec Ideal ⟨2, ![K, N]⟩ φ₂) (bias : FVec Ideal ⟨2, ![1, N]⟩ .f32)
    (x : FVec Ideal ⟨2, ![R, K]⟩ .f32) (w : FVec Ideal ⟨2, ![K, N]⟩ .f32) (b1 : FVec Ideal ⟨1, ![N]⟩ .f32)
    (hx : ∀ r k, x' (ix2 r k) = x (ix2 (e r) k)) (hw : ∀ k n, w' (ix2 k n) = w (ix2 k n)) (hb : ∀ n, bias (ix2 (0 : Fin 1) n) = b1 (ix1 n)) :
    RowsOf e (affK pb x' w' bias) (affR (R := R) p1 p2 x w b1) := by
  intro r n
  rw [affK_apply, affR_apply, hb]
  exact congrArg (· + b1 (ix1 n)) (Finset.sum_congr rfl fun c _ => by rw [hx, hw])

/-- The maximum with zero as the kernel spells it. -/
def reluK (v : FVec Ideal ⟨2, ![R, N]⟩ .f32) : FVec Ideal ⟨2, ![R, N]⟩ .f32 :=
  maximumf v (broadcast ⟨2, ![R, N]⟩ (Scalar.ofBits (F := Ideal) .f32 0x00000000#32))

/-- The maximum with zero as the host spells it. -/
def reluR (p : (⟨0, ![]⟩ : Shape).BroadcastsInDim ⟨2, ![R, N]⟩ ![]) (v : FVec Ideal ⟨2, ![R, N]⟩ .f32) : FVec Ideal ⟨2, ![R, N]⟩ .f32 :=
  maximumf v (broadcastInDim ⟨2, ![R, N]⟩ ![] p (constant (F := Ideal) ⟨0, ![]⟩ .f32 0x00000000#32))

/-- The maximum with zero of some rows is the same rows of the maximum with zero. -/
theorem relu_rows (e : Fin R' → Fin R) p (Y : FVec Ideal ⟨2, ![R', N]⟩ .f32) (X : FVec Ideal ⟨2, ![R, N]⟩ .f32) (h : RowsOf e Y X) :
    RowsOf e (reluK Y) (reluR p X) := by
  intro r n
  unfold reluK reluR
  rw [maximumf_apply, maximumf_apply, h r n]
  rfl

end Cert.Dense

end
-- ==== Proof.Region2.lean ====
/-
  The third pallas_call (the layer-2 edge transform, two edges per row): the edge attributes [1600000, 4] are viewed as
  [800000, 8], one row holding the attributes of the edges 2p and 2p + 1; the weight [8, 128] is We in its two diagonal
  4 × 64 blocks and zero in the other two; the bias [1, 128] is be twice. Row p of the product then holds
  ea (2p) · We + be in its columns 0 … 63 and ea (2p + 1) · We + be in its columns 64 … 127 (the products with the zero
  blocks vanish), so that viewed as [1600000, 64] the output is ea · We + be.
-/
import proofs.«176886_j61761629716807_2_alg».proof.Proof.Gen.KernelIdeal.Frame
import proofs.«176886_j61761629716807_2_alg».proof.Proof.Spec
import proofs.«176886_j61761629716807_2_alg».proof.Proof.LibDenseRows
import Idealize.ShloMosaic.Lib.Pipeline.Value
import Idealize.ShloMosaic.Lib.ValueIdx

set_option maxRecDepth 16384

noncomputable section

namespace Cert.Gnn

open Idealize.ShloMosaic Idealize.ShloMosaic.TcCoe Idealize.ShloMosaic.ValueIdx Idealize.SL.Sem
open Cert.KernelIdeal Cert.KernelIdeal.Facts₀ Cert.KernelIdeal.Facts Cert.KernelIdeal.Gen
open Idealize.ShloMosaic.Pipeline (Dat)

/-- The zero block of the layer-2 weight. -/
abbrev zero4x64 : FVec Ideal S4x64 .f32 := broadcastInDim S4x64 ![] Facts₀.bcast_S_S4x64 (constant (F := Ideal) S_ .f32 0x00000000#32)

/-! ## The folded operands, entry by entry -/

/-- Edge 2p + s, as a row of the edge attributes. -/
def edgeOf (p : Fin 800000) (s : Fin 2) : Fin 1600000 := ⟨2 * p.val + s.val, by have := p.isLt; have := s.isLt; omega⟩

/-- Column 4s + k of a folded attribute row. -/
def col8 (s : Fin 2) (k : Fin 4) : Fin 8 := ⟨4 * s.val + k.val, by have := s.isLt; have := k.isLt; omega⟩

/-- Column 64s + d of a folded output row. -/
def col128 (s : Fin 2) (d : Fin 64) : Fin 128 := ⟨64 * s.val + d.val, by have := s.isLt; have := d.isLt; omega⟩

/-- The zero block reads 0 everywhere. -/
theorem zero4x64_apply (i : S4x64.Idx) : zero4x64 i = 0 := Ideal.ofBits_zero_f32

/-- The attributes viewed two edges per row: entry (p, 4s + k) is attribute k of edge 2p + s. -/
theorem pair_apply (ea : FVec Ideal S1600000x4 .f32) (p : Fin 800000) (s : Fin 2) (k : Fin 4) :
    shapeCast S800000x8 ea Facts₀.shapeCasts_S1600000x4_S800000x8 (ix2 p (col8 s k)) = ea (ix2 (edgeOf p s) k) := by
  refine shapeCast_apply ea _ _ _ ?_
  rw [Shape.rowMajor_val_two, Shape.rowMajor_val_two]
  show (2 * p.val + s.val) * 4 + k.val = p.val * 8 + (4 * s.val + k.val)
  omega

/-- The block-diagonal weight: entry (4s + k, 64s' + d) is We (k, d) on the diagonal blocks and 0 off them. -/
theorem wdiag_apply (we : FVec Ideal S4x64 .f32) (s : Fin 2) (k : Fin 4) (s' : Fin 2) (d : Fin 64) :
    concatenate S8x128 0
        [⟨S4x128, concatenate S4x128 1 [⟨S4x64, we⟩, ⟨S4x64, zero4x64⟩] Facts₀.concatenates_S4x64_S4x64_S4x128_d1⟩,
         ⟨S4x128, concatenate S4x128 1 [⟨S4x64, zero4x64⟩, ⟨S4x64, we⟩] Facts₀.concatenates_S4x64_S4x64_S4x128_d1⟩]
        Facts₀.concatenates_S4x128_S4x128_S8x128_d0 (ix2 (col8 s k) (col128 s' d))
      = if s = s' then we (ix2 k d) else 0 := by
  have hs := s.isLt; have hs' := s'.isLt; have hk := k.isLt; have hd := d.isLt
  by_cases h0 : s.val = 0
  · -- the upper half [We | 0]
    refine (concatenate_pair_apply_left (t := S8x128) (s₁ := S4x128) (s₂ := S4x128) 0 _ _ _ _ rfl (ix2 k (col128 s' d)) fun a => ?_).trans ?_
    · match a with
      | ⟨0, _⟩ => show k.val = 4 * s.val + k.val; omega
      | ⟨1, _⟩ => rfl
    by_cases h0' : s'.val = 0
    · rw [if_pos (Fin.ext (by omega))]
      refine concatenate_pair_apply_left (t := S4x128) (s₁ := S4x64) (s₂ := S4x64) 1 _ _ _ _ rfl (ix2 k d) fun a => ?_
      match a with
      | ⟨0, _⟩ => rfl
      | ⟨1, _⟩ => show d.val = 64 * s'.val + d.val; omega
    · rw [if_neg (fun e => h0' (by rw [← e]; exact h0))]
      refine (concatenate_pair_apply_right (t := S4x128) (s₁ := S4x64) (s₂ := S4x64) 1 _ _ _ _ rfl rfl (ix2 k d) (fun a ha => ?_) ?_).trans (zero4x64_apply _)
      · match a with
        | ⟨0, _⟩ => rfl
        | ⟨1, _⟩ => exact absurd rfl ha
      · show d.val + 64 = 64 * s'.val + d.val; omega
  · -- the lower half [0 | We]
    refine (concatenate_pair_apply_right (t := S8x128) (s₁ := S4x128) (s₂ := S4x128) 0 _ _ _ _ rfl rfl (ix2 k (col128 s' d)) (fun a ha => ?_) ?_).trans ?_
    · match a with
      | ⟨0, _⟩ => exact absurd rfl ha
      | ⟨1, _⟩ => rfl
    · show k.val + 4 = 4 * s.val + k.val; omega
    by_cases h0' : s'.val = 0
    · rw [if_neg (fun e => h0 (by rw [e]; exact h0'))]
      refine (concatenate_pair_apply_left (t := S4x128) (s₁ := S4x64) (s₂ := S4x64) 1 _ _ _ _ rfl (ix2 k d) fun a => ?_).trans (zero4x64_apply _)
      match a with
      | ⟨0, _⟩ => rfl
      | ⟨1, _⟩ => show d.val = 64 * s'.val + d.val; omega
    · rw [if_pos (Fin.ext (by omega))]
      refine concatenate_pair_apply_right (t := S4x128) (s₁ := S4x64) (s₂ := S4x64) 1 _ _ _ _ rfl rfl (ix2 k d) (fun a ha => ?_) ?_
      · match a with
        | ⟨0, _⟩ => rfl
        | ⟨1, _⟩ => exact absurd rfl ha
      · show d.val + 64 = 64 * s'.val + d.val; omega

/-- The doubled bias as a row: entry (0, 64s + d) is be d. -/
theorem bias2_apply (be : FVec Ideal S64 .f32) (s : Fin 2) (d : Fin 64) :
    shapeCast S1x128 (concatenate S128 0 [⟨S64, be⟩, ⟨S64, be⟩] Facts₀.concatenates_S64_S64_S128_d0) Facts₀.shapeCasts_S128_S1x128
        (ix2 (0 : Fin 1) (col128 s d)) = be (ix1 d) := by
  have hs := s.isLt; have hd := d.isLt
  refine (shapeCast_apply _ _ _ (ix1 (col128 s d)) ?_).trans ?_
  · rw [Shape.rowMajor_val_one, Shape.rowMajor_val_two]
    show 64 * s.val + d.val = 0 * 128 + (64 * s.val + d.val)
    omega
  by_cases h0 : s.val = 0
  · refine concatenate_pair_apply_left (t := S128) (s₁ := S64) (s₂ := S64) 0 _ _ _ _ rfl (ix1 d) fun a => ?_
    match a with
    | ⟨0, _⟩ => show d.val = 64 * s.val + d.val; omega
  · refine concatenate_pair_apply_right (t := S128) (s₁ := S64) (s₂ := S64) 0 _ _ _ _ rfl rfl (ix1 d) (fun a ha => ?_) ?_
    · match a with
      | ⟨0, _⟩ => exact absurd rfl ha
    · show d.val + 64 = 64 * s.val + d.val; omega

/-- A sum over the eight folded columns is the sum over the two edges of the sums over the four attributes. -/
theorem sum_col8 (f : Fin 8 → EReal) : ∑ k' : Fin 8, f k' = ∑ s : Fin 2, ∑ k : Fin 4, f (col8 s k) := by
  rw [Fin.sum_univ_eight, Fin.sum_univ_two, Fin.sum_univ_four, Fin.sum_univ_four]
  simp only [add_assoc]
  rfl

/-- One entry of the folded product: the off-diagonal products are with 0 and vanish, leaving the edge's own affine
    map. No finiteness is needed: on the extended reals x * 0 = 0 and x + 0 = x for every x. -/
theorem fold_entry (ea : FVec Ideal S1600000x4 .f32) (we : FVec Ideal S4x64 .f32) (be : FVec Ideal S64 .f32)
    (X : FVec Ideal S800000x8 .f32) (W : FVec Ideal S8x128 .f32) (B : FVec Ideal S1x128 .f32)
    (hX : X = shapeCast S800000x8 ea Facts₀.shapeCasts_S1600000x4_S800000x8)
    (hW : W = concatenate S8x128 0
        [⟨S4x128, concatenate S4x128 1 [⟨S4x64, we⟩, ⟨S4x64, zero4x64⟩] Facts₀.concatenates_S4x64_S4x64_S4x128_d1⟩,
         ⟨S4x128, concatenate S4x128 1 [⟨S4x64, zero4x64⟩, ⟨S4x64, we⟩] Facts₀.concatenates_S4x64_S4x64_S4x128_d1⟩]
        Facts₀.concatenates_S4x128_S4x128_S8x128_d0)
    (hB : B = shapeCast S1x128 (concatenate S128 0 [⟨S64, be⟩, ⟨S64, be⟩] Facts₀.concatenates_S64_S64_S128_d0) Facts₀.shapeCasts_S128_S1x128)
    (p : Fin 800000) (s : Fin 2) (d : Fin 64) :
    (∑ k' : Fin 8, X (ix2 p k') * W (ix2 k' (col128 s d))) + B (ix2 (0 : Fin 1) (col128 s d))
      = (∑ k : Fin 4, ea (ix2 (edgeOf p s) k) * we (ix2 k d)) + be (ix1 d) := by
  subst hX hW hB
  rw [bias2_apply, sum_col8]
  simp only [pair_apply, wdiag_apply]
  congr 1
  rw [Fin.sum_univ_two]
  have hs := s.isLt
  by_cases h0 : s = 0
  · subst h0
    simp only [if_true, if_neg (show ¬((1 : Fin 2) = 0) by decide), mul_zero, Finset.sum_const_zero, add_zero]
  · have h1 : s = 1 := Fin.ext (by have : s.val ≠ 0 := fun h => h0 (Fin.ext h); show s.val = 1; omega)
    subst h1
    simp only [if_true, if_neg (show ¬((0 : Fin 2) = 1) by decide), mul_zero, Finset.sum_const_zero, zero_add]

/-! ## The region's output array -/

theorem zero_offsets2 : (![0, 0] : Fin 2 → Nat) = fun _ => 0 := funext fun a => by fin_cases a <;> rfl

/-- The folded product as one whole-array function of the three arrays the region reads: entry (r, n) is the sum over
    the eight folded columns of X (r, k) · W (k, n), plus B (0, n). -/
def foldArr (X : FVec Ideal S800000x8 .f32) (W : FVec Ideal S8x128 .f32) (B : FVec Ideal S1x128 .f32) : FVec Ideal S800000x128 .f32 :=
  fun i => (∑ k : Fin 8, X (ix2 (i 0) k) * W (ix2 k (i 1))) + B (ix2 (0 : Fin 1) (i 1))

theorem foldArr_apply (X : FVec Ideal S800000x8 .f32) (W : FVec Ideal S8x128 .f32) (B : FVec Ideal S1x128 .f32) (r : Fin 800000) (n : Fin 128) :
    foldArr X W B (ix2 r n) = (∑ k : Fin 8, X (ix2 r k) * W (ix2 k n)) + B (ix2 (0 : Fin 1) n) := rfl

/-- What the body stores, entry by entry: the product of its attribute block with the weight, plus the bias row (on
    the extended reals the narrowing of the operands is the identity). -/
theorem pay2_apply (x0 : FVec Ideal S8000x8 .f32) (x1 : FVec Ideal S8x128 .f32) (x2 : FVec Ideal S1x128 .f32) (r : Fin 8000) (n : Fin 128) :
    k2_pay1 x0 x1 x2 (ix2 r n) = (∑ k : Fin 8, x0 (ix2 r k) * x1 (ix2 k n)) + x2 (ix2 (0 : Fin 1) n) := by
  unfold k2_pay1
  refine (Cert.Dense.affK_apply (R := 8000) (K := 8) (N := 128) _ _ _ _ r n).trans ?_
  simp only [truncf_apply, shapeCast_self]

/-- A block of the output against the whole-array function: if the attribute block is rows 8000 T … of X and the
    other two blocks are W and B, the body's store at j is the whole-array function at row 8000 T + j. -/
theorem block2_entry (x0 : FVec Ideal S8000x8 .f32) (x1 : FVec Ideal S8x128 .f32) (x2 : FVec Ideal S1x128 .f32)
    (X : FVec Ideal S800000x8 .f32) (W : FVec Ideal S8x128 .f32) (B : FVec Ideal S1x128 .f32) (T : ℕ)
    (h0 : ∀ (r : Fin 8000) (k : Fin 8) (R : Fin 800000), R.val = T * 8000 + r.val → x0 (ix2 r k) = X (ix2 R k))
    (h1 : x1 = W) (h2 : x2 = B)
    (j : S8000x128.Idx) (i : S800000x128.Idx) (hi0 : (i 0).val = T * 8000 + (j 0).val) (hi1 : (i 1).val = (j 1).val) :
    k2_pay1 x0 x1 x2 j = foldArr X W B i := by
  obtain ⟨r, n, rfl⟩ : ∃ (r : Fin 8000) (n : Fin 128), j = ix2 r n := ⟨j 0, j 1, eq_ix2 j⟩
  obtain ⟨R, n', rfl⟩ : ∃ (R : Fin 800000) (n' : Fin 128), i = ix2 R n' := ⟨i 0, i 1, eq_ix2 i⟩
  have hn : n' = n := Fin.ext hi1
  subst hn h1 h2
  rw [pay2_apply, foldArr_apply]
  exact congrArg (· + x2 (ix2 (0 : Fin 1) n')) (Finset.sum_congr rfl fun k _ => by rw [h0 r k R hi0])

/-- The windows' index maps over the grid: the attribute and output blocks move with the point, the weight and bias
    blocks stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks
variable (V : (c : Dev nD) → (b : Ref sig .tc) → Buf (Elt Ideal) ((c : Thread nD τ).loc b)) (c : Dev nD)

/-- The attribute block at point t is rows 8000 t … 8000 t + 7999 of the attribute array. -/
theorem iblk2_attr (t : Fin cfg2.N) (r : Fin 8000) (k : Fin 8) (R : Fin 800000) (hR : R.val = t.val * 8000 + r.val) :
    (iblk2 V c 0 t : FVec Ideal S8000x8 .f32) (ix2 r k) = (V c main_v27 : FVec Ideal S800000x8 .f32) (ix2 R k) := by
  obtain ⟨e0, e1, -⟩ := idx_facts2 t
  unfold iblk2
  rw [View.read_apply]
  show V c main_v27 _ = V c main_v27 _
  congr 1
  funext a; apply Fin.ext
  match a with
  | ⟨0, _⟩ => show win2_0.index t (0 : Fin 2) * 8000 + 1 * r.val = R.val; omega
  | ⟨1, _⟩ => show win2_0.index t (1 : Fin 2) * 8 + 1 * k.val = k.val; omega

/-- The weight block at every point is the whole weight array. -/
theorem iblk2_weight (t : Fin cfg2.N) : (iblk2 V c 1 t : FVec Ideal S8x128 .f32) = (V c main_v24 : FVec Ideal S8x128 .f32) := by
  obtain ⟨-, -, e0, e1, -⟩ := idx_facts2 t
  funext y
  unfold iblk2
  rw [View.read_apply]
  show V c main_v24 _ = V c main_v24 _
  congr 1
  funext a; apply Fin.ext
  match a with
  | ⟨0, _⟩ => show win2_1.index t (0 : Fin 2) * 8 + 1 * (y 0).val = (y 0).val; omega
  | ⟨1, _⟩ => show win2_1.index t (1 : Fin 2) * 128 + 1 * (y 1).val = (y 1).val; omega

/-- The bias block at every point is the whole bias row. -/
theorem iblk2_bias (t : Fin cfg2.N) : (iblk2 V c 2 t : FVec Ideal S1x128 .f32) = (V c main_v26 : FVec Ideal S1x128 .f32) := by
  obtain ⟨-, -, -, -, e0, e1, -⟩ := idx_facts2 t
  funext y
  unfold iblk2
  rw [View.read_apply]
  show V c main_v26 _ = V c main_v26 _
  congr 1
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What point t writes back is block t of the whole-array function of the arrays the region is entered with. -/
theorem flushed2_eq (t : Fin cfg2.N) :
    (dat2 (F := Ideal) V c).flushed 3 t
      = ((cfg2.win 3).blk t).view.read (Elt Ideal) (foldArr (V c main_v27) (V c main_v24) (V c main_v26)) := by
  show (cfg2.win 3).cut (grid2.coords t) ((dat2 V c).after 3 t) = _
  rw [after2_3]
  unfold out2_3
  rw [View.canon_unit_zero zero_offsets2]
  simp only [View.ld_unit_zero (S := S8000x8) zero_offsets2, View.ld_unit_zero (S := S8x128) zero_offsets2, View.ld_unit_zero (S := S1x128) zero_offsets2]
  obtain ⟨-, -, -, -, -, -, e0, e1⟩ := idx_facts2 t
  funext j
  rw [View.read_apply]
  refine block2_entry _ _ _ _ _ _ t.val (fun r k R hR => iblk2_attr V c t r k R hR) (iblk2_weight V c t) (iblk2_bias V c t) _ _ ?_ ?_
  · show win2_3.index t (0 : Fin 2) * 8000 + 1 * (j 0).val = t.val * 8000 + (j 0).val; omega
  · show win2_3.index t (1 : Fin 2) * 128 + 1 * (j 1).val = (j 1).val; omega

/-- Every row of the output array is in the block of the point row / 8000, which writes back. -/
theorem cover2 (i : S800000x128.Idx) : ∃ t : Fin cfg2.N, (cfg2.win 3).flush t = true ∧ i ∈ ((cfg2.win 3).blk t).view.set := by
  have hi0 : (i 0).val < 800000 := (i 0).isLt
  have hi1 : (i 1).val < 128 := (i 1).isLt
  have hN : cfg2.N = 100 := N_2
  have hlt : (i 0).val / 8000 < cfg2.N := by rw [hN]; omega
  obtain ⟨-, -, -, -, -, -, e0, e1⟩ := idx_facts2 ⟨(i 0).val / 8000, hlt⟩
  have e0' : win2_3.index ⟨(i 0).val / 8000, hlt⟩ (0 : Fin 2) = (i 0).val / 8000 := e0
  refine ⟨⟨(i 0).val / 8000, hlt⟩, flush2_3 _, ?_⟩
  show i ∈ ((View.whole main_v28).slice (win2_3.rect ⟨(i 0).val / 8000, hlt⟩)).set
  rw [View.set_slice_whole, Rect.mem_set_unit]
  intro a
  match a with
  | ⟨0, _⟩ =>
    show win2_3.index ⟨(i 0).val / 8000, hlt⟩ (0 : Fin 2) * 8000 ≤ (i 0).val ∧ (i 0).val < win2_3.index ⟨(i 0).val / 8000, hlt⟩ (0 : Fin 2) * 8000 + 8000
    omega
  | ⟨1, _⟩ =>
    show win2_3.index ⟨(i 0).val / 8000, hlt⟩ (1 : Fin 2) * 128 ≤ (i 1).val ∧ (i 1).val < win2_3.index ⟨(i 0).val / 8000, hlt⟩ (1 : Fin 2) * 128 + 128
    omega

/-- The output array after the region is the whole-array function of the arrays the region is entered with. -/
theorem region2_array :
    (dat2 (F := Ideal) V c).arrAt 3 cfg2.N = foldArr (V c main_v27) (V c main_v24) (V c main_v26) :=
  (dat2 V c).arrAt_eq_of_cover 3 (foldArr (V c main_v27) (V c main_v24) (V c main_v26)) (fun t _ => flushed2_eq V c t) cover2

end Blocks

/-- Region 2's output array [800000, 128], viewed as [1600000, 64], is the layer-2 edge features. -/
theorem region2_value (V : (c : Dev nD) → (b : Ref sig .tc) → Buf (Elt Ideal) ((c : Thread nD τ).loc b)) (c : Dev nD)
    (ea : FVec Ideal S1600000x4 .f32) (we : FVec Ideal S4x64 .f32) (be : FVec Ideal S64 .f32)
    (hea : (V c main_v27 : FVec Ideal S800000x8 .f32) = shapeCast S800000x8 ea Facts₀.shapeCasts_S1600000x4_S800000x8)
    (hw : (V c main_v24 : FVec Ideal S8x128 .f32) = concatenate S8x128 0
        [⟨S4x128, concatenate S4x128 1 [⟨S4x64, we⟩, ⟨S4x64, zero4x64⟩] Facts₀.concatenates_S4x64_S4x64_S4x128_d1⟩,
         ⟨S4x128, concatenate S4x128 1 [⟨S4x64, zero4x64⟩, ⟨S4x64, we⟩] Facts₀.concatenates_S4x64_S4x64_S4x128_d1⟩]
        Facts₀.concatenates_S4x128_S4x128_S8x128_d0)
    (hb : (V c main_v26 : FVec Ideal S1x128 .f32) = shapeCast S1x128 (concatenate S128 0 [⟨S64, be⟩, ⟨S64, be⟩] Facts₀.concatenates_S64_S64_S128_d0) Facts₀.shapeCasts_S128_S1x128) :
    shapeCast S1600000x64 ((dat2 (F := Ideal) V c).arrAt 3 cfg2.N) Facts₀.shapeCasts_S800000x128_S1600000x64 = lin64 ea we be := by
  rw [region2_array V c]
  funext i
  obtain ⟨e, d, rfl⟩ : ∃ (e : Fin 1600000) (d : Fin 64), i = ix2 e d := ⟨i 0, i 1, eq_ix2 i⟩
  have he := e.isLt
  have hd := d.isLt
  -- entry (e, d) of the [1600000, 64] view is entry (e / 2, 64 (e % 2) + d) of the [800000, 128] array
  have hcast : shapeCast S1600000x64 (foldArr (V c main_v27) (V c main_v24) (V c main_v26)) Facts₀.shapeCasts_S800000x128_S1600000x64 (ix2 e d)
      = foldArr (V c main_v27) (V c main_v24) (V c main_v26) (ix2 (⟨e.val / 2, by omega⟩ : Fin 800000) (col128 ⟨e.val % 2, by omega⟩ d)) := by
    refine shapeCast_apply _ _ _ _ ?_
    rw [Shape.rowMajor_val_two, Shape.rowMajor_val_two]
    show (e.val / 2) * 128 + (64 * (e.val % 2) + d.val) = e.val * 64 + d.val
    omega
  rw [hcast, foldArr_apply, fold_entry ea we be _ _ _ hea hw hb]
  have hes : edgeOf (⟨e.val / 2, by omega⟩ : Fin 800000) ⟨e.val % 2, by omega⟩ = e :=
    Fin.ext (by show 2 * (e.val / 2) + e.val % 2 = e.val; omega)
  rw [hes]
  exact (Cert.Dense.affR_apply (R := 1600000) (K := 4) (N := 64) _ _ ea we be e d).symm

end Cert.Gnn

end
-- ==== Proof.Region3.lean ====
/-
  The fourth pallas_call (the layer-2 node update): after the region its output array is
  max (max ((h + a) · Wa + ba) 0 · Wb + bb) 0 of the arrays the region is entered with. Point t of the grid of 10
  computes the 5000 rows 5000 t … 5000 t + 4999.
-/
import proofs.«176886_j61761629716807_2_alg».proof.Proof.Gen.KernelIdeal.Frame
import proofs.«176886_j61761629716807_2_alg».proof.Proof.Spec
import proofs.«176886_j61761629716807_2_alg».proof.Proof.LibDenseRows
import Idealize.ShloMosaic.Lib.Pipeline.Value
import Idealize.ShloMosaic.Lib.ValueIdx

set_option maxRecDepth 16384

noncomputable section

namespace Cert.Gnn

open Idealize.ShloMosaic Idealize.ShloMosaic.TcCoe Idealize.ShloMosaic.ValueIdx Idealize.SL.Sem
open Cert.KernelIdeal Cert.KernelIdeal.Facts₀ Cert.KernelIdeal.Facts Cert.KernelIdeal.Gen
open Idealize.ShloMosaic.Pipeline (Dat)

/-- The zero offsets of a whole-block rectangle, as the constant function. -/
theorem zero_off3 : (![0, 0] : Fin 2 → Nat) = fun _ => 0 := funext fun a => by fin_cases a <;> rfl

/-- The body's store on blocks holding the rows e of h and of a is the same rows of the node update: the sum of the
    two blocks is the rows of h + a, each product into a zero accumulator plus the broadcast bias is the affine layer
    on those rows, and each maximum with zero is taken entry by entry (on the extended reals the narrowing of the
    operands is the identity). -/
theorem pay3_rows (e : Fin 5000 → Fin 50000)
    (x0 x1 : Vec Ideal S5000x64 .f32) (x2 : Vec Ideal S64x64 .f32) (x3 : Vec Ideal S1x64 .f32) (x4 : Vec Ideal S64x64 .f32) (x5 : Vec Ideal S1x64 .f32)
    (H A : FVec Ideal S50000x64 .f32) (Wa : FVec Ideal S64x64 .f32) (ba : FVec Ideal S64 .f32) (Wb : FVec Ideal S64x64 .f32) (bb : FVec Ideal S64 .f32)
    (hx : ∀ (r : Fin 5000) (k : Fin 64), x0 (ix2 r k) = H (ix2 (e r) k))
    (ha : ∀ (r : Fin 5000) (k : Fin 64), x1 (ix2 r k) = A (ix2 (e r) k))
    (hwa : ∀ (k : Fin 64) (n : Fin 64), x2 (ix2 k n) = Wa (ix2 k n))
    (hba : ∀ n : Fin 64, x3 (ix2 (0 : Fin 1) n) = ba (ix1 n))
    (hwb : ∀ (k : Fin 64) (n : Fin 64), x4 (ix2 k n) = Wb (ix2 k n))
    (hbb : ∀ n : Fin 64, x5 (ix2 (0 : Fin 1) n) = bb (ix1 n)) :
    Cert.Bfly.RowsOf e (k3_pay1 x0 x1 x2 x3 x4 x5) (mlp64 H A Wa ba Wb bb) := by
  have h1 := Cert.Dense.aff_rows e Gen.broadcasts_S1x64_S5000x64 Cert.ReferenceIdeal.Gen.bcast_S64_S1x64_1
    Cert.ReferenceIdeal.Gen.bcast_S1x64_S50000x64_0_1
    (truncf .bf16 (addf (shapeCast S5000x64 x0 Gen.shapeCasts_S5000x64_S5000x64) (shapeCast S5000x64 x1 Gen.shapeCasts_S5000x64_S5000x64)) Gen.bitsLt_bf16_f32)
    (truncf .bf16 x2 Gen.bitsLt_bf16_f32) (shapeCast S1x64 x3 Gen.shapeCasts_S1x64_S1x64) (addf H A) Wa ba
    (fun r k => by rw [truncf_apply, addf_apply, addf_apply, shapeCast_self, shapeCast_self, hx, ha]) hwa
    (fun n => by rw [shapeCast_self]; exact hba n)
  have h2 := Cert.Dense.relu_rows e Cert.ReferenceIdeal.Gen.bcast_S_S50000x64 _ _ h1
  have h3 := Cert.Dense.aff_rows e Gen.broadcasts_S1x64_S5000x64 Cert.ReferenceIdeal.Gen.bcast_S64_S1x64_1
    Cert.ReferenceIdeal.Gen.bcast_S1x64_S50000x64_0_1
    (truncf .bf16 _ Gen.bitsLt_bf16_f32)
    (truncf .bf16 x4 Gen.bitsLt_bf16_f32) (shapeCast S1x64 x5 Gen.shapeCasts_S1x64_S1x64) _ Wb bb
    (fun r k => (truncf_apply _ Gen.bitsLt_bf16_f32 _).trans (h2 r k)) hwb
    (fun n => by rw [shapeCast_self]; exact hbb n)
  exact Cert.Dense.relu_rows e Cert.ReferenceIdeal.Gen.bcast_S_S50000x64 _ _ h3

/-- The windows' index maps over the grid: the two row windows and the output window move with the point, the weight
    and bias windows stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- An index of the output array is in point t's block iff each coordinate is in the block's range on its axis. -/
theorem mem_blk3 (t : Fin cfg3.N) (i : S50000x64.Idx) :
    i ∈ ((cfg3.win 6).blk t).view.set ↔
      ∀ a : Fin 2, win3_6.index t a * S5000x64.size a ≤ (i a).val ∧ (i a).val < win3_6.index t a * S5000x64.size a + S5000x64.size a := by
  show i ∈ ((View.whole main_v44).slice (win3_6.rect t)).set ↔ _
  rw [View.set_slice_whole, Rect.mem_set_unit]
  exact Iff.rfl

/-- The blocks tile the output array: row i lies in the block of point i / 5000. -/
theorem cover3 (i : S50000x64.Idx) : ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show _ < grid3.N; rw [show grid3.N = 10 from N_3]; omega⟩, rfl⟩
  obtain ⟨a0, a1, b0, b1, c0, c1, d0, d1, f0, f1, g0, g1, o0, o1⟩ := idx3 t
  refine ⟨t, flush3_6 t, (mem_blk3 t i).mpr fun a => ?_⟩
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 64 ≤ (i 1).val ∧ (i 1).val < win3_6.index t (1 : Fin 2) * 64 + 64
    omega

section Blocks3
variable (V : (c : Dev nD) → (b : Ref sig .tc) → Buf (Elt Ideal) ((c : Thread nD τ).loc b)) (c : Dev nD)

/-- The block of h at point t is rows 5000 t … 5000 t + 4999 of h. -/
theorem iblk3_h (t : Fin cfg3.N) (r : Fin 5000) (k : Fin 64) (R : Fin 50000) (hR : R.val = 5000 * t.val + r.val) :
    (iblk3 V c 0 t : FVec Ideal S5000x64 .f32) (ix2 r k) = (V c main_v20 : FVec Ideal S50000x64 .f32) (ix2 R k) := by
  obtain ⟨a0, a1, -⟩ := idx3 t
  show V c main_v20 (((cfg3.win 0).blk t).view.emb (ix2 r k)) = V c main_v20 (ix2 R k)
  congr 1
  funext a; apply Fin.ext
  match a with
  | ⟨0, _⟩ => show win3_0.index t (0 : Fin 2) * 5000 + 1 * r.val = R.val; omega
  | ⟨1, _⟩ => show win3_0.index t (1 : Fin 2) * 64 + 1 * k.val = k.val; omega

/-- The block of a at point t is rows 5000 t … 5000 t + 4999 of a. -/
theorem iblk3_a (t : Fin cfg3.N) (r : Fin 5000) (k : Fin 64) (R : Fin 50000) (hR : R.val = 5000 * t.val + r.val) :
    (iblk3 V c 1 t : FVec Ideal S5000x64 .f32) (ix2 r k) = (V c main_v41 : FVec Ideal S50000x64 .f32) (ix2 R k) := by
  obtain ⟨-, -, b0, b1, -⟩ := idx3 t
  show V c main_v41 (((cfg3.win 1).blk t).view.emb (ix2 r k)) = V c main_v41 (ix2 R k)
  congr 1
  funext a; apply Fin.ext
  match a with
  | ⟨0, _⟩ => show win3_1.index t (0 : Fin 2) * 5000 + 1 * r.val = R.val; omega
  | ⟨1, _⟩ => show win3_1.index t (1 : Fin 2) * 64 + 1 * k.val = k.val; omega

/-- The first weight's block at every point is the whole weight. -/
theorem iblk3_wa (t : Fin cfg3.N) (k n : Fin 64) :
    (iblk3 V c 2 t : FVec Ideal S64x64 .f32) (ix2 k n) = (V c main_arg12 : FVec Ideal S64x64 .f32) (ix2 k n) := by
  obtain ⟨-, -, -, -, c0, c1, -⟩ := idx3 t
  show V c main_arg12 (((cfg3.win 2).blk t).view.emb (ix2 k n)) = V c main_arg12 (ix2 k n)
  congr 1
  funext a; apply Fin.ext
  match a with
  | ⟨0, _⟩ => show win3_2.index t (0 : Fin 2) * 64 + 1 * k.val = k.val; omega
  | ⟨1, _⟩ => show win3_2.index t (1 : Fin 2) * 64 + 1 * n.val = n.val; omega

/-- The first bias's block at every point is the whole bias row. -/
theorem iblk3_ba (t : Fin cfg3.N) (n : Fin 64) :
    (iblk3 V c 3 t : FVec Ideal S1x64 .f32) (ix2 (0 : Fin 1) n) = (V c main_v42 : FVec Ideal S1x64 .f32) (ix2 (0 : Fin 1) n) := by
  obtain ⟨-, -, -, -, -, -, d0, d1, -⟩ := idx3 t
  show V c main_v42 (((cfg3.win 3).blk t).view.emb (ix2 (0 : Fin 1) n)) = V c main_v42 (ix2 (0 : Fin 1) n)
  congr 1
  funext a; apply Fin.ext
  match a with
  | ⟨0, _⟩ => show win3_3.index t (0 : Fin 2) * 1 + 1 * (0 : Fin 1).val = (0 : Fin 1).val; omega
  | ⟨1, _⟩ => show win3_3.index t (1 : Fin 2) * 64 + 1 * n.val = n.val; omega

/-- The second weight's block at every point is the whole weight. -/
theorem iblk3_wb (t : Fin cfg3.N) (k n : Fin 64) :
    (iblk3 V c 4 t : FVec Ideal S64x64 .f32) (ix2 k n) = (V c main_arg14 : FVec Ideal S64x64 .f32) (ix2 k n) := by
  obtain ⟨-, -, -, -, -, -, -, -, f0, f1, -⟩ := idx3 t
  show V c main_arg14 (((cfg3.win 4).blk t).view.emb (ix2 k n)) = V c main_arg14 (ix2 k n)
  congr 1
  funext a; apply Fin.ext
  match a with
  | ⟨0, _⟩ => show win3_4.index t (0 : Fin 2) * 64 + 1 * k.val = k.val; omega
  | ⟨1, _⟩ => show win3_4.index t (1 : Fin 2) * 64 + 1 * n.val = n.val; omega

/-- The second bias's block at every point is the whole bias row. -/
theorem iblk3_bb (t : Fin cfg3.N) (n : Fin 64) :
    (iblk3 V c 5 t : FVec Ideal S1x64 .f32) (ix2 (0 : Fin 1) n) = (V c main_v43 : FVec Ideal S1x64 .f32) (ix2 (0 : Fin 1) n) := by
  obtain ⟨-, -, -, -, -, -, -, -, -, -, g0, g1, -⟩ := idx3 t
  show V c main_v43 (((cfg3.win 5).blk t).view.emb (ix2 (0 : Fin 1) n)) = V c main_v43 (ix2 (0 : Fin 1) n)
  congr 1
  funext a; apply Fin.ext
  match a with
  | ⟨0, _⟩ => show win3_5.index t (0 : Fin 2) * 1 + 1 * (0 : Fin 1).val = (0 : Fin 1).val; omega
  | ⟨1, _⟩ => show win3_5.index t (1 : Fin 2) * 64 + 1 * n.val = n.val; omega

/-- An entry of point t's output block sits in the array at row 5000 t + its row. -/
theorem emb3_out (t : Fin cfg3.N) (r : Fin 5000) (n : Fin 64) (R : Fin 50000) (hR : R.val = 5000 * t.val + r.val) :
    ((cfg3.win 6).blk t).view.emb (ix2 r n) = (ix2 R n : S50000x64.Idx) := by
  obtain ⟨-, -, -, -, -, -, -, -, -, -, -, -, o0, o1⟩ := idx3 t
  funext a; apply Fin.ext
  match a with
  | ⟨0, _⟩ => show win3_6.index t (0 : Fin 2) * 5000 + 1 * r.val = R.val; omega
  | ⟨1, _⟩ => show win3_6.index t (1 : Fin 2) * 64 + 1 * n.val = n.val; omega

/-- What point t writes back is block t of the node update of the arrays the region is entered with. -/
theorem flushed3_eq (ba bb : FVec Ideal S64 .f32)
    (hba : ∀ n : Fin 64, (V c main_v42 : FVec Ideal S1x64 .f32) (ix2 (0 : Fin 1) n) = ba (ix1 n))
    (hbb : ∀ n : Fin 64, (V c main_v43 : FVec Ideal S1x64 .f32) (ix2 (0 : Fin 1) n) = bb (ix1 n)) (t : Fin cfg3.N) :
    (dat3 (F := Ideal) V c).flushed 6 t
      = ((cfg3.win 6).blk t).view.read (Elt Ideal) (mlp64 (V c main_v20) (V c main_v41) (V c main_arg12) ba (V c main_arg14) bb) := by
  show (cfg3.win 6).cut (grid3.coords t) ((dat3 V c).after 6 t) = _
  rw [after3_6]
  unfold out3_6
  rw [View.canon_unit_zero zero_off3]
  simp only [View.ld_unit_zero (S := S5000x64) zero_off3, View.ld_unit_zero (S := S64x64) zero_off3, View.ld_unit_zero (S := S1x64) zero_off3]
  funext j
  obtain ⟨r, n, rfl⟩ : ∃ (r : Fin 5000) (n : Fin 64), j = ix2 r n := ⟨j 0, j 1, eq_ix2 j⟩
  have ht : t.val < 10 := (show grid3.N = 10 from N_3) ▸ t.isLt
  let e : Fin 5000 → Fin 50000 := fun r => ⟨5000 * t.val + r.val, by have := r.isLt; omega⟩
  show k3_pay1 (iblk3 V c 0 t) (iblk3 V c 1 t) (iblk3 V c 2 t) (iblk3 V c 3 t) (iblk3 V c 4 t) (iblk3 V c 5 t) (ix2 r n)
    = mlp64 (V c main_v20) (V c main_v41) (V c main_arg12) ba (V c main_arg14) bb (((cfg3.win 6).blk t).view.emb (ix2 r n))
  rw [emb3_out t r n (e r) rfl]
  exact pay3_rows e _ _ _ _ _ _ _ _ _ _ _ _ (fun r k => iblk3_h V c t r k (e r) rfl) (fun r k => iblk3_a V c t r k (e r) rfl)
    (fun k n => iblk3_wa V c t k n) (fun n => (iblk3_ba V c t n).trans (hba n))
    (fun k n => iblk3_wb V c t k n) (fun n => (iblk3_bb V c t n).trans (hbb n)) r n

end Blocks3

/-- Region 3's output array [50000, 64] is the node update of the arrays it is entered with. -/
theorem region3_value (V : (c : Dev nD) → (b : Ref sig .tc) → Buf (Elt Ideal) ((c : Thread nD τ).loc b)) (c : Dev nD)
    (ba bb : FVec Ideal S64 .f32)
    (hba : ∀ n : Fin 64, (V c main_v42 : FVec Ideal S1x64 .f32) (ix2 (0 : Fin 1) n) = ba (ix1 n))
    (hbb : ∀ n : Fin 64, (V c main_v43 : FVec Ideal S1x64 .f32) (ix2 (0 : Fin 1) n) = bb (ix1 n)) :
    (dat3 (F := Ideal) V c).arrAt 6 cfg3.N = mlp64 (V c main_v20) (V c main_v41) (V c main_arg12) ba (V c main_arg14) bb := by
  exact (dat3 (F := Ideal) V c).arrAt_eq_of_cover 6 (mlp64 (V c main_v20) (V c main_v41) (V c main_arg12) ba (V c main_arg14) bb)
    (fun t _ => flushed3_eq V c ba bb hba hbb t) cover3

end Cert.Gnn

end
-- ==== Proof.Region0.lean ====
/-
  The first pallas_call (the layer-1 edge transform): after the region its output array is ea · We + be of the arrays
  the region is entered with. Point t of the grid of 200 computes the 8000 rows 8000 t … 8000 t + 7999.
-/
import proofs.«176886_j61761629716807_2_alg».proof.Proof.Gen.KernelIdeal.Frame
import proofs.«176886_j61761629716807_2_alg».proof.Proof.Spec
import proofs.«176886_j61761629716807_2_alg».proof.Proof.LibDenseRows
import Idealize.ShloMosaic.Lib.Pipeline.Value
import Idealize.ShloMosaic.Lib.ValueIdx

set_option maxRecDepth 16384

noncomputable section

namespace Cert.Gnn

open Idealize.ShloMosaic Idealize.ShloMosaic.TcCoe Idealize.ShloMosaic.ValueIdx Idealize.SL.Sem
open Cert.KernelIdeal Cert.KernelIdeal.Facts₀ Cert.KernelIdeal.Facts Cert.KernelIdeal.Gen
open Idealize.ShloMosaic.Pipeline (Dat)

/-- The zero offsets of a whole-block rectangle, as the constant function. -/
theorem zero_off0 : (![0, 0] : Fin 2 → Nat) = fun _ => 0 := funext fun a => by fin_cases a <;> rfl

/-- The body's payload on a block holding the rows e of ea is the same rows of ea · We + be: the matrix unit's product
    into a zero accumulator plus the broadcast bias is the affine layer, entry by entry. -/
theorem pay0_rows (e : Fin 8000 → Fin 1600000) (x0 : Vec Ideal S8000x4 .f32) (x1 : Vec Ideal S4x7 .f32) (x2 : Vec Ideal S1x7 .f32)
    (X : FVec Ideal S1600000x4 .f32) (W : FVec Ideal S4x7 .f32) (b : FVec Ideal S7 .f32)
    (hx : ∀ (r : Fin 8000) (k : Fin 4), x0 (ix2 r k) = X (ix2 (e r) k))
    (hw : ∀ (k : Fin 4) (n : Fin 7), x1 (ix2 k n) = W (ix2 k n))
    (hb : ∀ n : Fin 7, x2 (ix2 (0 : Fin 1) n) = b (ix1 n)) :
    Cert.Bfly.RowsOf e (k0_pay1 x0 x1 x2) (lin7 X W b) :=
  Cert.Dense.aff_rows e Gen.broadcasts_S1x7_S8000x7 _ _
    (truncf .bf16 x0 Gen.bitsLt_bf16_f32) (truncf .bf16 x1 Gen.bitsLt_bf16_f32) (shapeCast S1x7 x2 Gen.shapeCasts_S1x7_S1x7) X W b hx hw
    (fun n => by rw [shapeCast_self]; exact hb n)

/-- The printed index maps over the grid: the row windows move with the point, the weight and bias windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Region 0's output array [1600000, 7] is the layer-1 edge features of the arrays it is entered with. -/
theorem region0_value (V : (c : Dev nD) → (b : Ref sig .tc) → Buf (Elt Ideal) ((c : Thread nD τ).loc b)) (c : Dev nD)
    (be : FVec Ideal S7 .f32) (hbe : ∀ n : Fin 7, (V c main_v4 : FVec Ideal S1x7 .f32) (ix2 (0 : Fin 1) n) = be (ix1 n)) :
    (dat0 (F := Ideal) V c).arrAt 3 cfg0.N = lin7 (V c main_arg1) (V c main_arg4) be := by
  refine (dat0 (F := Ideal) V c).arrAt_eq_of_cover 3 (lin7 (V c main_arg1) (V c main_arg4) be) (fun t _ => ?_) (fun i => ?_)
  · show (cfg0.win 3).cut (grid0.coords t) ((dat0 V c).after 3 t) = _
    rw [after0_3]
    unfold out0_3
    rw [View.canon_unit_zero zero_off0]
    simp only [View.ld_unit_zero (S := S8000x4) zero_off0, View.ld_unit_zero (S := S4x7) zero_off0, View.ld_unit_zero (S := S1x7) zero_off0]
    funext j
    obtain ⟨r, n, rfl⟩ : ∃ (r : Fin 8000) (n : Fin 7), j = ix2 r n := ⟨j 0, j 1, eq_ix2 j⟩
    obtain ⟨a0, a1, b0, b1, c0, c1, d0, d1⟩ := idx0 t
    have ht : t.val < 200 := (show grid0.N = 200 from N_0) ▸ t.isLt
    let e : Fin 8000 → Fin 1600000 := fun r => ⟨8000 * t.val + r.val, by have := r.isLt; omega⟩
    have hout : ((cfg0.win 3).blk t).view.emb (ix2 r n) = ix2 (e r) n := by
      funext a; apply Fin.ext
      match a with
      | ⟨0, _⟩ => show win0_3.index t (0 : Fin 2) * 8000 + 1 * r.val = 8000 * t.val + r.val; omega
      | ⟨1, _⟩ => show win0_3.index t (1 : Fin 2) * 7 + 1 * n.val = n.val; omega
    show k0_pay1 (iblk0 V c 0 t) (iblk0 V c 1 t) (iblk0 V c 2 t) (ix2 r n)
      = lin7 (V c main_arg1) (V c main_arg4) be (((cfg0.win 3).blk t).view.emb (ix2 r n))
    rw [hout]
    refine pay0_rows e _ _ _ _ _ _ (fun r k => ?_) (fun k n => ?_) (fun n => ?_) r n
    · show V c main_arg1 (((cfg0.win 0).blk t).view.emb (ix2 r k)) = V c main_arg1 (ix2 (e r) k)
      congr 1
      funext a; apply Fin.ext
      match a with
      | ⟨0, _⟩ => show win0_0.index t (0 : Fin 2) * 8000 + 1 * r.val = 8000 * t.val + r.val; omega
      | ⟨1, _⟩ => show win0_0.index t (1 : Fin 2) * 4 + 1 * k.val = k.val; omega
    · show V c main_arg4 (((cfg0.win 1).blk t).view.emb (ix2 k n)) = V c main_arg4 (ix2 k n)
      congr 1
      funext a; apply Fin.ext
      match a with
      | ⟨0, _⟩ => show win0_1.index t (0 : Fin 2) * 4 + 1 * k.val = k.val; omega
      | ⟨1, _⟩ => show win0_1.index t (1 : Fin 2) * 7 + 1 * n.val = n.val; omega
    · refine Eq.trans ?_ (hbe n)
      show V c main_v4 (((cfg0.win 2).blk t).view.emb (ix2 (0 : Fin 1) n)) = V c main_v4 (ix2 (0 : Fin 1) n)
      congr 1
      funext a; apply Fin.ext
      match a with
      | ⟨0, _⟩ => show win0_2.index t (0 : Fin 2) * 1 + 1 * (0 : Fin 1).val = (0 : Fin 1).val; omega
      | ⟨1, _⟩ => show win0_2.index t (1 : Fin 2) * 7 + 1 * n.val = n.val; omega
  · have hi0 : (i 0).val < 1600000 := (i 0).isLt
    have hi1 : (i 1).val < 7 := (i 1).isLt
    obtain ⟨t, ht⟩ : ∃ t : Fin cfg0.N, t.val = (i 0).val / 8000 :=
      ⟨⟨(i 0).val / 8000, by show _ < grid0.N; rw [show grid0.N = 200 from N_0]; omega⟩, rfl⟩
    obtain ⟨a0, a1, b0, b1, c0, c1, d0, d1⟩ := idx0 t
    refine ⟨t, flush0_3 t, ?_⟩
    show i ∈ ((View.whole main_v5).slice (win0_3.rect t)).set
    rw [View.set_slice_whole, Rect.mem_set_unit]
    intro a
    match a with
    | ⟨0, _⟩ =>
      show win0_3.index t (0 : Fin 2) * 8000 ≤ (i 0).val ∧ (i 0).val < win0_3.index t (0 : Fin 2) * 8000 + 8000
      omega
    | ⟨1, _⟩ =>
      show win0_3.index t (1 : Fin 2) * 7 ≤ (i 1).val ∧ (i 1).val < win0_3.index t (1 : Fin 2) * 7 + 7
      omega

end Cert.Gnn

end
-- ==== Proof.Region1.lean ====
/-
  The second pallas_call (the layer-1 node update): after the region its output array is
  max (max ((x + a) · Wa + ba) 0 · Wb + bb) 0 of the arrays the region is entered with. Point t of the grid of 10
  computes the 5000 rows 5000 t … 5000 t + 4999.
-/
import proofs.«176886_j61761629716807_2_alg».proof.Proof.Gen.KernelIdeal.Frame
import proofs.«176886_j61761629716807_2_alg».proof.Proof.Spec
import proofs.«176886_j61761629716807_2_alg».proof.Proof.LibDenseRows
import Idealize.ShloMosaic.Lib.Pipeline.Value
import Idealize.ShloMosaic.Lib.ValueIdx

set_option maxRecDepth 16384

noncomputable section

namespace Cert.Gnn

open Idealize.ShloMosaic Idealize.ShloMosaic.TcCoe Idealize.ShloMosaic.ValueIdx Idealize.SL.Sem
open Cert.KernelIdeal Cert.KernelIdeal.Facts₀ Cert.KernelIdeal.Facts Cert.KernelIdeal.Gen
open Idealize.ShloMosaic.Pipeline (Dat)

/-- The zero offsets of a whole-block rectangle, as the constant function. -/
theorem zero_off1 : (![0, 0] : Fin 2 → Nat) = fun _ => 0 := funext fun a => by fin_cases a <;> rfl

/-- The body's payload on blocks holding the rows e of x and of a is the same rows of the node update: the sum of rows
    is the rows of the sum, and each affine layer and each maximum with zero acts row by row. -/
theorem pay1_rows (e : Fin 5000 → Fin 50000)
    (x0 x1 : Vec Ideal S5000x7 .f32) (x2 : Vec Ideal S7x64 .f32) (x3 : Vec Ideal S1x64 .f32) (x4 : Vec Ideal S64x64 .f32) (x5 : Vec Ideal S1x64 .f32)
    (X A : FVec Ideal S50000x7 .f32) (Wa : FVec Ideal S7x64 .f32) (ba : FVec Ideal S64 .f32) (Wb : FVec Ideal S64x64 .f32) (bb : FVec Ideal S64 .f32)
    (hx : ∀ (r : Fin 5000) (k : Fin 7), x0 (ix2 r k) = X (ix2 (e r) k))
    (ha : ∀ (r : Fin 5000) (k : Fin 7), x1 (ix2 r k) = A (ix2 (e r) k))
    (hwa : ∀ (k : Fin 7) (n : Fin 64), x2 (ix2 k n) = Wa (ix2 k n))
    (hba : ∀ n : Fin 64, x3 (ix2 (0 : Fin 1) n) = ba (ix1 n))
    (hwb : ∀ (k : Fin 64) (n : Fin 64), x4 (ix2 k n) = Wb (ix2 k n))
    (hbb : ∀ n : Fin 64, x5 (ix2 (0 : Fin 1) n) = bb (ix1 n)) :
    Cert.Bfly.RowsOf e (k1_pay1 x0 x1 x2 x3 x4 x5) (mlp7 X A Wa ba Wb bb) := by
  have h1 := Cert.Dense.aff_rows e Gen.broadcasts_S1x64_S5000x64 Cert.ReferenceIdeal.Gen.bcast_S64_S1x64_1
    Cert.ReferenceIdeal.Gen.bcast_S1x64_S50000x64_0_1
    (truncf .bf16 (addf x0 (shapeCast S5000x7 x1 Gen.shapeCasts_S5000x7_S5000x7)) Gen.bitsLt_bf16_f32)
    (truncf .bf16 x2 Gen.bitsLt_bf16_f32) (shapeCast S1x64 x3 Gen.shapeCasts_S1x64_S1x64) (addf X A) Wa ba
    (fun r k => by rw [truncf_apply, addf_apply, addf_apply, shapeCast_self, hx, ha]) hwa
    (fun n => by rw [shapeCast_self]; exact hba n)
  have h2 := Cert.Dense.relu_rows e Cert.ReferenceIdeal.Gen.bcast_S_S50000x64 _ _ h1
  have h3 := Cert.Dense.aff_rows e Gen.broadcasts_S1x64_S5000x64 Cert.ReferenceIdeal.Gen.bcast_S64_S1x64_1
    Cert.ReferenceIdeal.Gen.bcast_S1x64_S50000x64_0_1
    (truncf .bf16 _ Gen.bitsLt_bf16_f32)
    (truncf .bf16 x4 Gen.bitsLt_bf16_f32) (shapeCast S1x64 x5 Gen.shapeCasts_S1x64_S1x64) _ Wb bb
    (fun r k => (truncf_apply _ Gen.bitsLt_bf16_f32 _).trans (h2 r k)) hwb
    (fun n => by rw [shapeCast_self]; exact hbb n)
  exact Cert.Dense.relu_rows e Cert.ReferenceIdeal.Gen.bcast_S_S50000x64 _ _ h3

/-- The printed index maps over the grid: the row windows move with the point, the weight and bias windows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- An index of the output array is in point t's block iff each coordinate is in the block's range on its axis. -/
theorem mem_blk1 (t : Fin cfg1.N) (i : S50000x64.Idx) :
    i ∈ ((cfg1.win 6).blk t).view.set ↔
      ∀ a : Fin 2, win1_6.index t a * S5000x64.size a ≤ (i a).val ∧ (i a).val < win1_6.index t a * S5000x64.size a + S5000x64.size a := by
  show i ∈ ((View.whole main_v20).slice (win1_6.rect t)).set ↔ _
  rw [View.set_slice_whole, Rect.mem_set_unit]
  exact Iff.rfl

/-- The blocks tile the output array: row i lies in the block of point i / 5000. -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show _ < grid1.N; rw [show grid1.N = 10 from N_1]; omega⟩, rfl⟩
  obtain ⟨a0, a1, b0, b1, c0, c1, d0, d1, e0, e1, f0, f1, g0, g1⟩ := idx1 t
  refine ⟨t, flush1_6 t, (mem_blk1 t i).mpr fun a => ?_⟩
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- Region 1's output array [50000, 64] is the node update of the arrays it is entered with. -/
theorem region1_value (V : (c : Dev nD) → (b : Ref sig .tc) → Buf (Elt Ideal) ((c : Thread nD τ).loc b)) (c : Dev nD)
    (ba bb : FVec Ideal S64 .f32)
    (hba : ∀ n : Fin 64, (V c main_v18 : FVec Ideal S1x64 .f32) (ix2 (0 : Fin 1) n) = ba (ix1 n))
    (hbb : ∀ n : Fin 64, (V c main_v19 : FVec Ideal S1x64 .f32) (ix2 (0 : Fin 1) n) = bb (ix1 n)) :
    (dat1 (F := Ideal) V c).arrAt 6 cfg1.N = mlp7 (V c main_arg0) (V c main_v17) (V c main_arg6) ba (V c main_arg8) bb := by
  refine (dat1 (F := Ideal) V c).arrAt_eq_of_cover 6
    (mlp7 (V c main_arg0) (V c main_v17) (V c main_arg6) ba (V c main_arg8) bb) (fun t _ => ?_) (fun i => ?_)
  · -- what point t writes back is block t of the node update
    show (cfg1.win 6).cut (grid1.coords t) ((dat1 V c).after 6 t) = _
    rw [after1_6]
    unfold out1_6
    rw [View.canon_unit_zero zero_off1]
    simp only [View.ld_unit_zero (S := S5000x7) zero_off1, View.ld_unit_zero (S := S7x64) zero_off1,
      View.ld_unit_zero (S := S1x64) zero_off1, View.ld_unit_zero (S := S64x64) zero_off1]
    funext j
    obtain ⟨r, n, rfl⟩ : ∃ (r : Fin 5000) (n : Fin 64), j = ix2 r n := ⟨j 0, j 1, eq_ix2 j⟩
    obtain ⟨a0, a1, b0, b1, c0, c1, d0, d1, e0, e1, f0, f1, g0, g1⟩ := idx1 t
    have ht : t.val < 10 := (show grid1.N = 10 from N_1) ▸ t.isLt
    let e : Fin 5000 → Fin 50000 := fun r => ⟨5000 * t.val + r.val, by have := r.isLt; omega⟩
    have hout : ((cfg1.win 6).blk t).view.emb (ix2 r n) = ix2 (e r) n := by
      funext a; apply Fin.ext
      match a with
      | ⟨0, _⟩ => show win1_6.index t (0 : Fin 2) * 5000 + 1 * r.val = 5000 * t.val + r.val; omega
      | ⟨1, _⟩ => show win1_6.index t (1 : Fin 2) * 64 + 1 * n.val = n.val; omega
    show k1_pay1 (iblk1 V c 0 t) (iblk1 V c 1 t) (iblk1 V c 2 t) (iblk1 V c 3 t) (iblk1 V c 4 t) (iblk1 V c 5 t) (ix2 r n)
      = mlp7 (V c main_arg0) (V c main_v17) (V c main_arg6) ba (V c main_arg8) bb (((cfg1.win 6).blk t).view.emb (ix2 r n))
    rw [hout]
    refine pay1_rows e _ _ _ _ _ _ _ _ _ _ _ _ (fun r k => ?_) (fun r k => ?_) (fun k n => ?_) (fun n => ?_) (fun k n => ?_) (fun n => ?_) r n
    · show V c main_arg0 (((cfg1.win 0).blk t).view.emb (ix2 r k)) = V c main_arg0 (ix2 (e r) k)
      congr 1
      funext a; apply Fin.ext
      match a with
      | ⟨0, _⟩ => show win1_0.index t (0 : Fin 2) * 5000 + 1 * r.val = 5000 * t.val + r.val; omega
      | ⟨1, _⟩ => show win1_0.index t (1 : Fin 2) * 7 + 1 * k.val = k.val; omega
    · show V c main_v17 (((cfg1.win 1).blk t).view.emb (ix2 r k)) = V c main_v17 (ix2 (e r) k)
      congr 1
      funext a; apply Fin.ext
      match a with
      | ⟨0, _⟩ => show win1_1.index t (0 : Fin 2) * 5000 + 1 * r.val = 5000 * t.val + r.val; omega
      | ⟨1, _⟩ => show win1_1.index t (1 : Fin 2) * 7 + 1 * k.val = k.val; omega
    · show V c main_arg6 (((cfg1.win 2).blk t).view.emb (ix2 k n)) = V c main_arg6 (ix2 k n)
      congr 1
      funext a; apply Fin.ext
      match a with
      | ⟨0, _⟩ => show win1_2.index t (0 : Fin 2) * 7 + 1 * k.val = k.val; omega
      | ⟨1, _⟩ => show win1_2.index t (1 : Fin 2) * 64 + 1 * n.val = n.val; omega
    · refine Eq.trans ?_ (hba n)
      show V c main_v18 (((cfg1.win 3).blk t).view.emb (ix2 (0 : Fin 1) n)) = V c main_v18 (ix2 (0 : Fin 1) n)
      congr 1
      funext a; apply Fin.ext
      match a with
      | ⟨0, _⟩ => show win1_3.index t (0 : Fin 2) * 1 + 1 * (0 : Fin 1).val = (0 : Fin 1).val; omega
      | ⟨1, _⟩ => show win1_3.index t (1 : Fin 2) * 64 + 1 * n.val = n.val; omega
    · show V c main_arg8 (((cfg1.win 4).blk t).view.emb (ix2 k n)) = V c main_arg8 (ix2 k n)
      congr 1
      funext a; apply Fin.ext
      match a with
      | ⟨0, _⟩ => show win1_4.index t (0 : Fin 2) * 64 + 1 * k.val = k.val; omega
      | ⟨1, _⟩ => show win1_4.index t (1 : Fin 2) * 64 + 1 * n.val = n.val; omega
    · refine Eq.trans ?_ (hbb n)
      show V c main_v19 (((cfg1.win 5).blk t).view.emb (ix2 (0 : Fin 1) n)) = V c main_v19 (ix2 (0 : Fin 1) n)
      congr 1
      funext a; apply Fin.ext
      match a with
      | ⟨0, _⟩ => show win1_5.index t (0 : Fin 2) * 1 + 1 * (0 : Fin 1).val = (0 : Fin 1).val; omega
      | ⟨1, _⟩ => show win1_5.index t (1 : Fin 2) * 64 + 1 * n.val = n.val; omega
  · exact cover1 i

end Cert.Gnn

end
-- ==== Proof.HostK1.lean ====
/-
  The kernel program up to the end of its first layer: what the host stretches between the regions hand from one region
  to the next. A buffer no operation of a stretch writes, and no region has for an array, is carried unchanged; the
  stretch before the second region computes the layer-1 aggregate from the first region's output; so the second
  region's output is the first layer of the network, of the argument arrays.
-/
import proofs.«176886_j61761629716807_2_alg».proof.Proof.Gen.KernelIdeal.Frame
import proofs.«176886_j61761629716807_2_alg».proof.Proof.Spec
import proofs.«176886_j61761629716807_2_alg».proof.Proof.Region0
import proofs.«176886_j61761629716807_2_alg».proof.Proof.Region1
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gnn

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- No operation of the named stretch writes the buffer: the fold through the stretch leaves it as it was. -/
macro "skip_stretch " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Buffers carried unchanged -/

theorem back_main_arg1_1_0 : W1 m ρ c (Proc.devRef .tc main_arg1) = m ((c : Thread nD τ).loc main_arg1) :=
  calc W1 m ρ c (Proc.devRef .tc main_arg1)
    _ = W0 m ρ c (Proc.devRef .tc main_arg1) := by skip_stretch hostOps0
    _ = m ((c : Thread nD τ).loc main_arg1) := rfl
theorem back_main_arg4_1_0 : W1 m ρ c (Proc.devRef .tc main_arg4) = m ((c : Thread nD τ).loc main_arg4) :=
  calc W1 m ρ c (Proc.devRef .tc main_arg4)
    _ = W0 m ρ c (Proc.devRef .tc main_arg4) := by skip_stretch hostOps0
    _ = m ((c : Thread nD τ).loc main_arg4) := rfl
theorem back_main_arg0_5_0 : W5 m ρ c (Proc.devRef .tc main_arg0) = m ((c : Thread nD τ).loc main_arg0) :=
  calc W5 m ρ c (Proc.devRef .tc main_arg0)
    _ = W4 m ρ c (Proc.devRef .tc main_arg0) := by skip_stretch hostOps1_2
    _ = W3 m ρ c (Proc.devRef .tc main_arg0) := by skip_stretch hostOps1_1
    _ = W2 m ρ c (Proc.devRef .tc main_arg0) := by skip_stretch hostOps1
    _ = W1 m ρ c (Proc.devRef .tc main_arg0) := W2_of_ne m ρ c main_arg0 (by decide)
    _ = W0 m ρ c (Proc.devRef .tc main_arg0) := by skip_stretch hostOps0
    _ = m ((c : Thread nD τ).loc main_arg0) := rfl
theorem back_main_arg6_5_0 : W5 m ρ c (Proc.devRef .tc main_arg6) = m ((c : Thread nD τ).loc main_arg6) :=
  calc W5 m ρ c (Proc.devRef .tc main_arg6)
    _ = W4 m ρ c (Proc.devRef .tc main_arg6) := by skip_stretch hostOps1_2
    _ = W3 m ρ c (Proc.devRef .tc main_arg6) := by skip_stretch hostOps1_1
    _ = W2 m ρ c (Proc.devRef .tc main_arg6) := by skip_stretch hostOps1
    _ = W1 m ρ c (Proc.devRef .tc main_arg6) := W2_of_ne m ρ c main_arg6 (by decide)
    _ = W0 m ρ c (Proc.devRef .tc main_arg6) := by skip_stretch hostOps0
    _ = m ((c : Thread nD τ).loc main_arg6) := rfl
theorem back_main_arg8_5_0 : W5 m ρ c (Proc.devRef .tc main_arg8) = m ((c : Thread nD τ).loc main_arg8) :=
  calc W5 m ρ c (Proc.devRef .tc main_arg8)
    _ = W4 m ρ c (Proc.devRef .tc main_arg8) := by skip_stretch hostOps1_2
    _ = W3 m ρ c (Proc.devRef .tc main_arg8) := by skip_stretch hostOps1_1
    _ = W2 m ρ c (Proc.devRef .tc main_arg8) := by skip_stretch hostOps1
    _ = W1 m ρ c (Proc.devRef .tc main_arg8) := W2_of_ne m ρ c main_arg8 (by decide)
    _ = W0 m ρ c (Proc.devRef .tc main_arg8) := by skip_stretch hostOps0
    _ = m ((c : Thread nD τ).loc main_arg8) := rfl
theorem back_main_arg7_2_0 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by skip_stretch hostOps0
    _ = m ((c : Thread nD τ).loc main_arg7) := rfl
theorem back_main_arg9_2_0 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by skip_stretch hostOps0
    _ = m ((c : Thread nD τ).loc main_arg9) := rfl
theorem back_main_arg0_2_0 : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := by skip_stretch hostOps0
    _ = m ((c : Thread nD τ).loc main_arg0) := rfl
theorem back_main_v1_2_1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem back_main_v3_2_1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-! ## The first stretch: the edge list's two rows, and the layer-1 edge bias as a row -/

theorem v1_eq : W1 m ρ c (Proc.devRef .tc main_v1) = srcOf (m ((c : Thread nD τ).loc main_arg2)) := by
  show StableHlo.after hostOps0 (W0 m ρ c) (Proc.devRef .tc main_v1) = _
  simp only [hostOps0]
  after_results
  rfl

theorem v3_eq : W1 m ρ c (Proc.devRef .tc main_v3) = dstOf (m ((c : Thread nD τ).loc main_arg2)) := by
  show StableHlo.after hostOps0 (W0 m ρ c) (Proc.devRef .tc main_v3) = _
  simp only [hostOps0]
  after_results
  rfl

theorem v4_eq : W1 m ρ c (Proc.devRef .tc main_v4) = shapeCast S1x7 (m ((c : Thread nD τ).loc main_arg5)) Facts₀.shapeCasts_S7_S1x7 := by
  show StableHlo.after hostOps0 (W0 m ρ c) (Proc.devRef .tc main_v4) = _
  simp only [hostOps0]
  after_results
  rfl

/-! ## The first region: the layer-1 edge features -/

/-- The first region leaves ea · We1 + be1 in its output array. -/
theorem e1_eq : W2 m ρ c (Proc.devRef .tc main_v5) = lin7 (m ((c : Thread nD τ).loc main_arg1)) (m ((c : Thread nD τ).loc main_arg4)) (m ((c : Thread nD τ).loc main_arg5)) := by
  refine (W2_arr m ρ c 3).trans ?_
  rw [region0_value (V1 m ρ) c (m ((c : Thread nD τ).loc main_arg5)) (fun n => by
    show (W1 m ρ c (Proc.devRef .tc main_v4) : FVec Ideal S1x7 .f32) (ix2 (0 : Fin 1) n) = _
    rw [v4_eq]
    exact shapeCast_a_1a_apply _ _ _ _)]
  show lin7 (W1 m ρ c (Proc.devRef .tc main_arg1)) (W1 m ρ c (Proc.devRef .tc main_arg4)) _ = _
  rw [back_main_arg1_1_0, back_main_arg4_1_0]

/-! ## The stretch before the second region: the layer-1 aggregate, and the two node biases as rows -/

set_option maxHeartbeats 4000000 in
/-- The second region is entered with the layer-1 aggregate of x and the first region's output. -/
theorem aggr1_eq : W5 m ρ c (Proc.devRef .tc main_v17)
    = aggr7 (m ((c : Thread nD τ).loc main_arg0)) (m ((c : Thread nD τ).loc main_arg2)) (W2 m ρ c (Proc.devRef .tc main_v5)) := by
  show StableHlo.after hostOps1_2 (StableHlo.after hostOps1_1 (StableHlo.after hostOps1 (W2 m ρ c))) (Proc.devRef .tc main_v17) = _
  simp only [hostOps1, hostOps1_1, hostOps1_2]
  after_results_simp
  rw [back_main_v1_2_1, back_main_v3_2_1, back_main_arg0_2_0, v1_eq, v3_eq]
  rfl

theorem v18_eq : W5 m ρ c (Proc.devRef .tc main_v18) = shapeCast S1x64 (m ((c : Thread nD τ).loc main_arg7)) Facts₀.shapeCasts_S64_S1x64 := by
  show StableHlo.after hostOps1_2 (W4 m ρ c) (Proc.devRef .tc main_v18) = _
  simp only [hostOps1_2]
  after_results
  rw [back_main_arg7_2_0]
  rfl

theorem v19_eq : W5 m ρ c (Proc.devRef .tc main_v19) = shapeCast S1x64 (m ((c : Thread nD τ).loc main_arg9)) Facts₀.shapeCasts_S64_S1x64 := by
  show StableHlo.after hostOps1_2 (W4 m ρ c) (Proc.devRef .tc main_v19) = _
  simp only [hostOps1_2]
  after_results
  rw [back_main_arg9_2_0]
  rfl

/-! ## The second region: the first layer -/

/-- The second region leaves the network's first layer, of the argument arrays, in its output array. -/
theorem h1_eq : W6 m ρ c (Proc.devRef .tc main_v20)
    = layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 6).trans ?_
  rw [region1_value (V5 m ρ) c (m ((c : Thread nD τ).loc main_arg7)) (m ((c : Thread nD τ).loc main_arg9))
    (fun n => by
      show (W5 m ρ c (Proc.devRef .tc main_v18) : FVec Ideal S1x64 .f32) (ix2 (0 : Fin 1) n) = _
      rw [v18_eq]
      exact shapeCast_a_1a_apply _ _ _ _)
    (fun n => by
      show (W5 m ρ c (Proc.devRef .tc main_v19) : FVec Ideal S1x64 .f32) (ix2 (0 : Fin 1) n) = _
      rw [v19_eq]
      exact shapeCast_a_1a_apply _ _ _ _)]
  show mlp7 (W5 m ρ c (Proc.devRef .tc main_arg0)) (W5 m ρ c (Proc.devRef .tc main_v17)) (W5 m ρ c (Proc.devRef .tc main_arg6)) _
    (W5 m ρ c (Proc.devRef .tc main_arg8)) _ = _
  rw [back_main_arg0_5_0, back_main_arg6_5_0, back_main_arg8_5_0, aggr1_eq, e1_eq]
  rfl

end Cert.Gnn

end
-- ==== Proof.LibConcatCongr.lean ====
/-
  A concatenation of two parts depends on the parts' values only — as a CONGRUENCE rule.

  A two-part concatenation `concatenate t ax [⟨s₁, a⟩, ⟨s₂, b⟩] h` carries a side condition `h` whose statement
  mentions the list of parts (through the parts' shapes), so a simplification's automatic congruence does not descend
  into the list, and rewrite rules never reach the operands `a`, `b` standing inside it. Declared a congruence rule
  where it is needed (`attribute [local congr] Idealize.ShloMosaic.concatenate_pair_congr`), this lemma makes the
  simplification rewrite the two operands like any other argument: reading a list of host operations back as one
  composed term then also rewrites what a concatenation joins, instead of leaving the operands as unread buffer
  contents after a prefix of the operations.
-/
import Idealize.ShloMosaic.Lib.Pipeline.Value

noncomputable section

namespace Idealize.ShloMosaic

/-- A concatenation of two parts depends on the parts' values only: equal first parts and equal second parts give
    equal concatenations, the side condition (which speaks of the parts' shapes alone) being the same. -/
theorem concatenate_pair_congr {α : Type} {t : Shape} {ax : Fin t.rank} {s₁ s₂ : Shape}
    {a a' : s₁.Idx → α} {b b' : s₂.Idx → α} (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

end Idealize.ShloMosaic

end
-- ==== Proof.HostK2.lean ====
/-
  The kernel program from its first layer's output to its result. The stretch before the third region lays out the
  layer-2 edge transform's operands (the edge attributes two edges per row, the weight in its two diagonal blocks,
  the bias twice); its output viewed edge by edge is the layer-2 edge features; the stretch before the fourth region
  computes the layer-2 aggregate; the fourth region's output is the network's second layer; and the last stretch is
  the readout. So the result buffer ends at the network of the argument arrays.
-/
import proofs.«176886_j61761629716807_2_alg».proof.Proof.Gen.KernelIdeal.Frame
import proofs.«176886_j61761629716807_2_alg».proof.Proof.Spec
import proofs.«176886_j61761629716807_2_alg».proof.Proof.Region2
import proofs.«176886_j61761629716807_2_alg».proof.Proof.Region3
import proofs.«176886_j61761629716807_2_alg».proof.Proof.HostK1
import proofs.«176886_j61761629716807_2_alg».proof.Proof.LibConcatCongr
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gnn

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ## Buffers carried unchanged -/

theorem back_main_arg1_6_0 : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by skip_stretch hostOps1_2
    _ = W3 m ρ c (Proc.devRef .tc main_arg1) := by skip_stretch hostOps1_1
    _ = W2 m ρ c (Proc.devRef .tc main_arg1) := by skip_stretch hostOps1
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := by skip_stretch hostOps0
    _ = m ((c : Thread nD τ).loc main_arg1) := rfl
theorem back_main_arg10_6_0 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by skip_stretch hostOps1_2
    _ = W3 m ρ c (Proc.devRef .tc main_arg10) := by skip_stretch hostOps1_1
    _ = W2 m ρ c (Proc.devRef .tc main_arg10) := by skip_stretch hostOps1
    _ = W1 m ρ c (Proc.devRef .tc main_arg10) := W2_of_ne m ρ c main_arg10 (by decide)
    _ = W0 m ρ c (Proc.devRef .tc main_arg10) := by skip_stretch hostOps0
    _ = m ((c : Thread nD τ).loc main_arg10) := rfl
theorem back_main_arg11_6_0 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by skip_stretch hostOps1_2
    _ = W3 m ρ c (Proc.devRef .tc main_arg11) := by skip_stretch hostOps1_1
    _ = W2 m ρ c (Proc.devRef .tc main_arg11) := by skip_stretch hostOps1
    _ = W1 m ρ c (Proc.devRef .tc main_arg11) := W2_of_ne m ρ c main_arg11 (by decide)
    _ = W0 m ρ c (Proc.devRef .tc main_arg11) := by skip_stretch hostOps0
    _ = m ((c : Thread nD τ).loc main_arg11) := rfl
theorem back_main_v1_8_1 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by skip_stretch hostOps2
    _ = W5 m ρ c (Proc.devRef .tc main_v1) := W6_of_ne m ρ c main_v1 (by decide)
    _ = W4 m ρ c (Proc.devRef .tc main_v1) := by skip_stretch hostOps1_2
    _ = W3 m ρ c (Proc.devRef .tc main_v1) := by skip_stretch hostOps1_1
    _ = W2 m ρ c (Proc.devRef .tc main_v1) := by skip_stretch hostOps1
    _ = W1 m ρ c (Proc.devRef .tc main_v1) := W2_of_ne m ρ c main_v1 (by decide)
theorem back_main_v3_8_1 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by skip_stretch hostOps2
    _ = W5 m ρ c (Proc.devRef .tc main_v3) := W6_of_ne m ρ c main_v3 (by decide)
    _ = W4 m ρ c (Proc.devRef .tc main_v3) := by skip_stretch hostOps1_2
    _ = W3 m ρ c (Proc.devRef .tc main_v3) := by skip_stretch hostOps1_1
    _ = W2 m ρ c (Proc.devRef .tc main_v3) := by skip_stretch hostOps1
    _ = W1 m ρ c (Proc.devRef .tc main_v3) := W2_of_ne m ρ c main_v3 (by decide)
theorem back_main_v20_8_6 : W8 m ρ c (Proc.devRef .tc main_v20) = W6 m ρ c (Proc.devRef .tc main_v20) :=
  calc W8 m ρ c (Proc.devRef .tc main_v20)
    _ = W7 m ρ c (Proc.devRef .tc main_v20) := W8_of_ne m ρ c main_v20 (by decide)
    _ = W6 m ρ c (Proc.devRef .tc main_v20) := by skip_stretch hostOps2
theorem back_main_v20_11_6 : W11 m ρ c (Proc.devRef .tc main_v20) = W6 m ρ c (Proc.devRef .tc main_v20) :=
  calc W11 m ρ c (Proc.devRef .tc main_v20)
    _ = W10 m ρ c (Proc.devRef .tc main_v20) := by skip_stretch hostOps3_2
    _ = W9 m ρ c (Proc.devRef .tc main_v20) := by skip_stretch hostOps3_1
    _ = W8 m ρ c (Proc.devRef .tc main_v20) := by skip_stretch hostOps3
    _ = W7 m ρ c (Proc.devRef .tc main_v20) := W8_of_ne m ρ c main_v20 (by decide)
    _ = W6 m ρ c (Proc.devRef .tc main_v20) := by skip_stretch hostOps2
theorem back_main_arg13_8_0 : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := by skip_stretch hostOps2
    _ = W5 m ρ c (Proc.devRef .tc main_arg13) := W6_of_ne m ρ c main_arg13 (by decide)
    _ = W4 m ρ c (Proc.devRef .tc main_arg13) := by skip_stretch hostOps1_2
    _ = W3 m ρ c (Proc.devRef .tc main_arg13) := by skip_stretch hostOps1_1
    _ = W2 m ρ c (Proc.devRef .tc main_arg13) := by skip_stretch hostOps1
    _ = W1 m ρ c (Proc.devRef .tc main_arg13) := W2_of_ne m ρ c main_arg13 (by decide)
    _ = W0 m ρ c (Proc.devRef .tc main_arg13) := by skip_stretch hostOps0
    _ = m ((c : Thread nD τ).loc main_arg13) := rfl
theorem back_main_arg15_8_0 : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := by skip_stretch hostOps2
    _ = W5 m ρ c (Proc.devRef .tc main_arg15) := W6_of_ne m ρ c main_arg15 (by decide)
    _ = W4 m ρ c (Proc.devRef .tc main_arg15) := by skip_stretch hostOps1_2
    _ = W3 m ρ c (Proc.devRef .tc main_arg15) := by skip_stretch hostOps1_1
    _ = W2 m ρ c (Proc.devRef .tc main_arg15) := by skip_stretch hostOps1
    _ = W1 m ρ c (Proc.devRef .tc main_arg15) := W2_of_ne m ρ c main_arg15 (by decide)
    _ = W0 m ρ c (Proc.devRef .tc main_arg15) := by skip_stretch hostOps0
    _ = m ((c : Thread nD τ).loc main_arg15) := rfl
theorem back_main_arg12_11_0 : W11 m ρ c (Proc.devRef .tc main_arg12) = m ((c : Thread nD τ).loc main_arg12) :=
  calc W11 m ρ c (Proc.devRef .tc main_arg12)
    _ = W10 m ρ c (Proc.devRef .tc main_arg12) := by skip_stretch hostOps3_2
    _ = W9 m ρ c (Proc.devRef .tc main_arg12) := by skip_stretch hostOps3_1
    _ = W8 m ρ c (Proc.devRef .tc main_arg12) := by skip_stretch hostOps3
    _ = W7 m ρ c (Proc.devRef .tc main_arg12) := W8_of_ne m ρ c main_arg12 (by decide)
    _ = W6 m ρ c (Proc.devRef .tc main_arg12) := by skip_stretch hostOps2
    _ = W5 m ρ c (Proc.devRef .tc main_arg12) := W6_of_ne m ρ c main_arg12 (by decide)
    _ = W4 m ρ c (Proc.devRef .tc main_arg12) := by skip_stretch hostOps1_2
    _ = W3 m ρ c (Proc.devRef .tc main_arg12) := by skip_stretch hostOps1_1
    _ = W2 m ρ c (Proc.devRef .tc main_arg12) := by skip_stretch hostOps1
    _ = W1 m ρ c (Proc.devRef .tc main_arg12) := W2_of_ne m ρ c main_arg12 (by decide)
    _ = W0 m ρ c (Proc.devRef .tc main_arg12) := by skip_stretch hostOps0
    _ = m ((c : Thread nD τ).loc main_arg12) := rfl
theorem back_main_arg14_11_0 : W11 m ρ c (Proc.devRef .tc main_arg14) = m ((c : Thread nD τ).loc main_arg14) :=
  calc W11 m ρ c (Proc.devRef .tc main_arg14)
    _ = W10 m ρ c (Proc.devRef .tc main_arg14) := by skip_stretch hostOps3_2
    _ = W9 m ρ c (Proc.devRef .tc main_arg14) := by skip_stretch hostOps3_1
    _ = W8 m ρ c (Proc.devRef .tc main_arg14) := by skip_stretch hostOps3
    _ = W7 m ρ c (Proc.devRef .tc main_arg14) := W8_of_ne m ρ c main_arg14 (by decide)
    _ = W6 m ρ c (Proc.devRef .tc main_arg14) := by skip_stretch hostOps2
    _ = W5 m ρ c (Proc.devRef .tc main_arg14) := W6_of_ne m ρ c main_arg14 (by decide)
    _ = W4 m ρ c (Proc.devRef .tc main_arg14) := by skip_stretch hostOps1_2
    _ = W3 m ρ c (Proc.devRef .tc main_arg14) := by skip_stretch hostOps1_1
    _ = W2 m ρ c (Proc.devRef .tc main_arg14) := by skip_stretch hostOps1
    _ = W1 m ρ c (Proc.devRef .tc main_arg14) := W2_of_ne m ρ c main_arg14 (by decide)
    _ = W0 m ρ c (Proc.devRef .tc main_arg14) := by skip_stretch hostOps0
    _ = m ((c : Thread nD τ).loc main_arg14) := rfl
theorem back_main_arg3_12_0 : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := by skip_stretch hostOps3_2
    _ = W9 m ρ c (Proc.devRef .tc main_arg3) := by skip_stretch hostOps3_1
    _ = W8 m ρ c (Proc.devRef .tc main_arg3) := by skip_stretch hostOps3
    _ = W7 m ρ c (Proc.devRef .tc main_arg3) := W8_of_ne m ρ c main_arg3 (by decide)
    _ = W6 m ρ c (Proc.devRef .tc main_arg3) := by skip_stretch hostOps2
    _ = W5 m ρ c (Proc.devRef .tc main_arg3) := W6_of_ne m ρ c main_arg3 (by decide)
    _ = W4 m ρ c (Proc.devRef .tc main_arg3) := by skip_stretch hostOps1_2
    _ = W3 m ρ c (Proc.devRef .tc main_arg3) := by skip_stretch hostOps1_1
    _ = W2 m ρ c (Proc.devRef .tc main_arg3) := by skip_stretch hostOps1
    _ = W1 m ρ c (Proc.devRef .tc main_arg3) := W2_of_ne m ρ c main_arg3 (by decide)
    _ = W0 m ρ c (Proc.devRef .tc main_arg3) := by skip_stretch hostOps0
    _ = m ((c : Thread nD τ).loc main_arg3) := rfl
theorem back_main_arg16_12_0 : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := by skip_stretch hostOps3_2
    _ = W9 m ρ c (Proc.devRef .tc main_arg16) := by skip_stretch hostOps3_1
    _ = W8 m ρ c (Proc.devRef .tc main_arg16) := by skip_stretch hostOps3
    _ = W7 m ρ c (Proc.devRef .tc main_arg16) := W8_of_ne m ρ c main_arg16 (by decide)
    _ = W6 m ρ c (Proc.devRef .tc main_arg16) := by skip_stretch hostOps2
    _ = W5 m ρ c (Proc.devRef .tc main_arg16) := W6_of_ne m ρ c main_arg16 (by decide)
    _ = W4 m ρ c (Proc.devRef .tc main_arg16) := by skip_stretch hostOps1_2
    _ = W3 m ρ c (Proc.devRef .tc main_arg16) := by skip_stretch hostOps1_1
    _ = W2 m ρ c (Proc.devRef .tc main_arg16) := by skip_stretch hostOps1
    _ = W1 m ρ c (Proc.devRef .tc main_arg16) := W2_of_ne m ρ c main_arg16 (by decide)
    _ = W0 m ρ c (Proc.devRef .tc main_arg16) := by skip_stretch hostOps0
    _ = m ((c : Thread nD τ).loc main_arg16) := rfl
theorem back_main_arg17_12_0 : W12 m ρ c (Proc.devRef .tc main_arg17) = m ((c : Thread nD τ).loc main_arg17) :=
  calc W12 m ρ c (Proc.devRef .tc main_arg17)
    _ = W11 m ρ c (Proc.devRef .tc main_arg17) := W12_of_ne m ρ c main_arg17 (by decide)
    _ = W10 m ρ c (Proc.devRef .tc main_arg17) := by skip_stretch hostOps3_2
    _ = W9 m ρ c (Proc.devRef .tc main_arg17) := by skip_stretch hostOps3_1
    _ = W8 m ρ c (Proc.devRef .tc main_arg17) := by skip_stretch hostOps3
    _ = W7 m ρ c (Proc.devRef .tc main_arg17) := W8_of_ne m ρ c main_arg17 (by decide)
    _ = W6 m ρ c (Proc.devRef .tc main_arg17) := by skip_stretch hostOps2
    _ = W5 m ρ c (Proc.devRef .tc main_arg17) := W6_of_ne m ρ c main_arg17 (by decide)
    _ = W4 m ρ c (Proc.devRef .tc main_arg17) := by skip_stretch hostOps1_2
    _ = W3 m ρ c (Proc.devRef .tc main_arg17) := by skip_stretch hostOps1_1
    _ = W2 m ρ c (Proc.devRef .tc main_arg17) := by skip_stretch hostOps1
    _ = W1 m ρ c (Proc.devRef .tc main_arg17) := W2_of_ne m ρ c main_arg17 (by decide)
    _ = W0 m ρ c (Proc.devRef .tc main_arg17) := by skip_stretch hostOps0
    _ = m ((c : Thread nD τ).loc main_arg17) := rfl

/-! ## The stretch before the third region: the operands of the layer-2 edge transform -/

theorem v27_eq : W7 m ρ c (Proc.devRef .tc main_v27) = shapeCast S800000x8 (m ((c : Thread nD τ).loc main_arg1)) Facts₀.shapeCasts_S1600000x4_S800000x8 := by
  show StableHlo.after hostOps2 (W6 m ρ c) (Proc.devRef .tc main_v27) = _
  simp only [hostOps2]
  after_results
  rw [back_main_arg1_6_0]
  rfl

attribute [local congr] Idealize.ShloMosaic.concatenate_pair_congr in
theorem v24_eq : W7 m ρ c (Proc.devRef .tc main_v24) = concatenate S8x128 0
      [⟨S4x128, concatenate S4x128 1 [⟨S4x64, (m ((c : Thread nD τ).loc main_arg10))⟩, ⟨S4x64, zero4x64⟩] Facts₀.concatenates_S4x64_S4x64_S4x128_d1⟩,
       ⟨S4x128, concatenate S4x128 1 [⟨S4x64, zero4x64⟩, ⟨S4x64, (m ((c : Thread nD τ).loc main_arg10))⟩] Facts₀.concatenates_S4x64_S4x64_S4x128_d1⟩]
      Facts₀.concatenates_S4x128_S4x128_S8x128_d0 := by
  show StableHlo.after hostOps2 (W6 m ρ c) (Proc.devRef .tc main_v24) = _
  simp only [hostOps2]
  after_results_simp
  rw [back_main_arg10_6_0]

attribute [local congr] Idealize.ShloMosaic.concatenate_pair_congr in
theorem v26_eq : W7 m ρ c (Proc.devRef .tc main_v26) = shapeCast S1x128
      (concatenate S128 0 [⟨S64, (m ((c : Thread nD τ).loc main_arg11))⟩, ⟨S64, (m ((c : Thread nD τ).loc main_arg11))⟩] Facts₀.concatenates_S64_S64_S128_d0) Facts₀.shapeCasts_S128_S1x128 := by
  show StableHlo.after hostOps2 (W6 m ρ c) (Proc.devRef .tc main_v26) = _
  simp only [hostOps2]
  after_results_simp
  rw [back_main_arg11_6_0]
  rfl

/-! ## The third region: the layer-2 edge features -/

/-- The third region's output, viewed edge by edge, is ea · We2 + be2. -/
theorem e2_eq : shapeCast S1600000x64 (W8 m ρ c (Proc.devRef .tc main_v28) : FVec Ideal S800000x128 .f32) Facts₀.shapeCasts_S800000x128_S1600000x64
    = lin64 (m ((c : Thread nD τ).loc main_arg1)) (m ((c : Thread nD τ).loc main_arg10)) (m ((c : Thread nD τ).loc main_arg11)) := by
  rw [show (W8 m ρ c (Proc.devRef .tc main_v28) : FVec Ideal S800000x128 .f32) = (dat2 (V7 m ρ) c).arrAt 3 cfg2.N from W8_arr m ρ c 3]
  exact region2_value (V7 m ρ) c _ _ _ (v27_eq m ρ c) (v24_eq m ρ c) (v26_eq m ρ c)

/-! ## The stretch before the fourth region: the layer-2 aggregate, and the two node biases as rows -/

set_option maxHeartbeats 4000000 in
/-- The fourth region is entered with the layer-2 aggregate of the first layer's output and the third region's. -/
theorem aggr2_eq : W11 m ρ c (Proc.devRef .tc main_v41)
    = aggr64 (W6 m ρ c (Proc.devRef .tc main_v20)) (m ((c : Thread nD τ).loc main_arg2))
        (shapeCast S1600000x64 (W8 m ρ c (Proc.devRef .tc main_v28) : FVec Ideal S800000x128 .f32) Facts₀.shapeCasts_S800000x128_S1600000x64) := by
  show StableHlo.after hostOps3_2 (StableHlo.after hostOps3_1 (StableHlo.after hostOps3 (W8 m ρ c))) (Proc.devRef .tc main_v41) = _
  simp only [hostOps3, hostOps3_1, hostOps3_2]
  after_results_simp
  rw [back_main_v1_8_1, back_main_v3_8_1, back_main_v20_8_6, v1_eq, v3_eq]
  rfl

theorem v42_eq : W11 m ρ c (Proc.devRef .tc main_v42) = shapeCast S1x64 (m ((c : Thread nD τ).loc main_arg13)) Facts₀.shapeCasts_S64_S1x64 := by
  show StableHlo.after hostOps3_2 (W10 m ρ c) (Proc.devRef .tc main_v42) = _
  simp only [hostOps3_2]
  after_results
  rw [back_main_arg13_8_0]
  rfl

theorem v43_eq : W11 m ρ c (Proc.devRef .tc main_v43) = shapeCast S1x64 (m ((c : Thread nD τ).loc main_arg15)) Facts₀.shapeCasts_S64_S1x64 := by
  show StableHlo.after hostOps3_2 (W10 m ρ c) (Proc.devRef .tc main_v43) = _
  simp only [hostOps3_2]
  after_results
  rw [back_main_arg15_8_0]
  rfl

/-! ## The fourth region: the second layer -/

/-- The fourth region leaves the network's second layer, of the first layer's output and the argument arrays, in
    its output array. -/
theorem h2_eq : W12 m ρ c (Proc.devRef .tc main_v44)
    = layer2 (W6 m ρ c (Proc.devRef .tc main_v20)) (m ((c : Thread nD τ).loc main_arg1)) (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W12_arr m ρ c 6).trans ?_
  rw [region3_value (V11 m ρ) c (m ((c : Thread nD τ).loc main_arg13)) (m ((c : Thread nD τ).loc main_arg15))
    (fun n => by
      show (W11 m ρ c (Proc.devRef .tc main_v42) : FVec Ideal S1x64 .f32) (ix2 (0 : Fin 1) n) = _
      rw [v42_eq]
      exact shapeCast_a_1a_apply _ _ _ _)
    (fun n => by
      show (W11 m ρ c (Proc.devRef .tc main_v43) : FVec Ideal S1x64 .f32) (ix2 (0 : Fin 1) n) = _
      rw [v43_eq]
      exact shapeCast_a_1a_apply _ _ _ _)]
  show mlp64 (W11 m ρ c (Proc.devRef .tc main_v20)) (W11 m ρ c (Proc.devRef .tc main_v41)) (W11 m ρ c (Proc.devRef .tc main_arg12)) _
    (W11 m ρ c (Proc.devRef .tc main_arg14)) _ = _
  rw [back_main_v20_11_6, back_main_arg12_11_0, back_main_arg14_11_0, aggr2_eq, e2_eq]
  rfl

/-! ## The last stretch: the readout -/

set_option maxHeartbeats 4000000 in
theorem out_eq : W13 m ρ c (Proc.devRef .tc main_v60)
    = readout (W12 m ρ c (Proc.devRef .tc main_v44)) (m ((c : Thread nD τ).loc main_arg3)) (m ((c : Thread nD τ).loc main_arg16)) (m ((c : Thread nD τ).loc main_arg17)) := by
  show StableHlo.after hostOps4 (W12 m ρ c) (Proc.devRef .tc main_v60) = _
  simp only [hostOps4]
  after_results_simp
  rw [back_main_arg3_12_0, back_main_arg16_12_0, back_main_arg17_12_0]
  rfl

/-- THE KERNEL PROGRAM'S RESULT: the network of the argument arrays. -/
theorem kernel_value : W13 m ρ c (Proc.devRef .tc main_v60)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [out_eq, h2_eq, h1_eq]
  rfl

end Cert.Gnn

end
-- ==== Proof.RefValue.lean ====
/-
  The reference program's result is the network of the argument arrays: its composed term of host operations is the
  composition of the layer functions, operation by operation.
-/
import proofs.«176886_j61761629716807_2_alg».proof.Proof.Gen.ReferenceIdeal.Run
import proofs.«176886_j61761629716807_2_alg».proof.Proof.Spec

noncomputable section

namespace Cert.Gnn

open Idealize.ShloMosaic Idealize.ShloMosaic.TcCoe Idealize.SL.Sem Cert.ReferenceIdeal Cert.ReferenceIdeal.Gen

set_option maxRecDepth 65536 in
/-- The reference's result buffer ends at the network of its argument arrays. -/
theorem ref_value (m : (ℓ : Loc nD τ sig) → Buf (Elt Ideal) ℓ) (c : Dev nD) :
    Cert.ReferenceIdeal.Value.res_main_v73 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.Value.res_main_v73
  rfl

/-- The network of equal arguments is the same array. -/
theorem net_congr {x x' : FVec Ideal S50000x7 .f32} {ea ea' : FVec Ideal S1600000x4 .f32} {ei ei' : IVec S2x1600000 32} {batch batch' : IVec S50000 32} {we1 we1' : FVec Ideal S4x7 .f32} {be1 be1' : FVec Ideal S7 .f32} {w1a w1a' : FVec Ideal S7x64 .f32} {b1a b1a' : FVec Ideal S64 .f32} {w1b w1b' : FVec Ideal S64x64 .f32} {b1b b1b' : FVec Ideal S64 .f32} {we2 we2' : FVec Ideal S4x64 .f32} {be2 be2' : FVec Ideal S64 .f32} {w2a w2a' : FVec Ideal S64x64 .f32} {b2a b2a' : FVec Ideal S64 .f32} {w2b w2b' : FVec Ideal S64x64 .f32} {b2b b2b' : FVec Ideal S64 .f32} {wfc wfc' : FVec Ideal S64x12 .f32} {bfc bfc' : FVec Ideal S12 .f32}
    (h0 : x = x') (h1 : ea = ea') (h2 : ei = ei') (h3 : batch = batch') (h4 : we1 = we1') (h5 : be1 = be1') (h6 : w1a = w1a') (h7 : b1a = b1a') (h8 : w1b = w1b') (h9 : b1b = b1b') (h10 : we2 = we2') (h11 : be2 = be2') (h12 : w2a = w2a') (h13 : b2a = b2a') (h14 : w2b = w2b') (h15 : b2b = b2b') (h16 : wfc = wfc') (h17 : bfc = bfc') :
    net x ea ei batch we1 be1 w1a b1a w1b b1b we2 be2 w2a b2a w2b b2b wfc bfc = net x' ea' ei' batch' we1' be1' w1a' b1a' w1b' b1b' we2' be2' w2a' b2a' w2b' b2b' wfc' bfc' := by
  subst h0 h1 h2 h3 h4 h5 h6 h7 h8 h9 h10 h11 h12 h13 h14 h15 h16 h17
  rfl

end Cert.Gnn

end
-- ==== Proof.lean ====
/-
  The certificate of a two-layer graph network with edge features and a per-graph mean readout:
      layer :  h ↦ max (max ((h + aggr h (ea · We + be)) · Wa + ba) 0 · Wb + bb) 0,
      aggr h e (v, j) = Σ over the edges (u → v) of max (h (u, j) + e (edge, j)) 0,
      result = (per-graph sum of the rows of the second layer / max (graph's node count) 1) · Wfc + bfc.
  The reference computes every step on the host. The kernel program computes the two edge transforms ea · We + be
  and the two node updates in four row-tiled matrix-unit regions — the layer-2 edge transform with two edges per
  row against the weight in two diagonal blocks, whose products with the zero blocks vanish — and the gathers,
  scatter-adds and the readout by the same host operations as the reference. On the extended reals a change of
  float format is the identity and a product into a zero accumulator is the plain finite sum, so each region's
  output array is the reference's function of the arrays it is entered with (Region0 … Region3), the host stretches
  between them are the reference's own operations (HostK1, HostK2), and both results are one function, `Cert.Gnn.net`,
  of the argument arrays (Spec, RefValue). No law used needs a finite input: x · 0 = 0 and x + 0 = x hold for every
  extended real.
  The frames of the two kernel programs are the generated launch of their thirteen segments; the reference's frame is
  its run with the result dropped; the idealization rewrote nothing.
-/
import proofs.«176886_j61761629716807_2_alg».proof.Defs
import proofs.«176886_j61761629716807_2_alg».proof.Proof.Gen.Kernel
import proofs.«176886_j61761629716807_2_alg».proof.Proof.Gen.Kernel.Frame
import proofs.«176886_j61761629716807_2_alg».proof.Proof.Gen.KernelIdeal
import proofs.«176886_j61761629716807_2_alg».proof.Proof.Gen.KernelIdeal.Frame
import proofs.«176886_j61761629716807_2_alg».proof.Proof.Gen.ReferenceIdeal
import proofs.«176886_j61761629716807_2_alg».proof.Proof.Gen.Pre_finite_inputs
import proofs.«176886_j61761629716807_2_alg».proof.Proof.Gen.ReferenceIdeal.Run
import proofs.«176886_j61761629716807_2_alg».proof.Proof.KRun
import proofs.«176886_j61761629716807_2_alg».proof.Proof.HostK2
import proofs.«176886_j61761629716807_2_alg».proof.Proof.RefValue
import Idealize.ShloMosaic.Adequacy
import Idealize.ShloMosaic.Init

noncomputable section

namespace Cert.Proof

open Idealize.ShloMosaic Idealize.SL.Sem

/-- The word-level kernel program runs and keeps its arguments: the launch of its segments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of the argument arrays in their result
    buffers: the kernel program by its regions' values and the host stretches between them, the reference by its composed
    term. -/
theorem algebraic : Cert.algebraic_KernelIdeal_ReferenceIdeal := by
  intro m ρ m' ρ' _ hagree
  refine ⟨fun c => Cert.Gnn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.Gnn.kernel_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    exact (Cert.Gnn.ref_value m' c).trans (Cert.Gnn.net_congr e0 e1 e2 e3 e4 e5 e6 e7 e8 e9 e10 e11 e12 e13 e14 e15 e16 e17)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
